-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S16x128 : Shape := ⟨2, ![16, 128]⟩
abbrev S5000x128 : Shape := ⟨2, ![5000, 128]⟩
abbrev S5000x1 : Shape := ⟨2, ![5000, 1]⟩
abbrev S8x128 : Shape := ⟨2, ![8, 128]⟩

abbrev nBuf : Space → Nat
  | .hbm => 69
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S50000x128, .f32⟩
  | .hbm, ⟨41, _⟩ => ⟨S16x128, .f32⟩
  | .hbm, ⟨42, _⟩ => ⟨S16x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v41 : BitVec 1 := Scalar.cmpi .eq arg1 c4_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  shapeCasts_S1x128_S128 : S1x128.ShapeCasts S128
  slices_S16x128_S1x128_8_0 : S16x128.Slices ![8, 0] S1x128
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S16x128.size a
  hwx0_8 : ∀ i : grid0.Coords, EltTy.bits .f32 = 32 ∨ (Rect.block (s := S16x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Base0.lean ====
/-
  Region 0 (the fused linear layer with its column statistics), what every case of its body shares: a window's
  block at a grid point read off the array the region is entered with; that an input's staging buffer holds its
  block at every point; the two branch conditions of the body decided over the grid (the inner coordinate is 0: the
  accumulators are reset; the inner coordinate is 4: the statistics are written out); at which points the two statistics
  windows are idle; and the region's invariant with the two accumulators split out of the scoped buffers.
-/
import proofs.«135504_j88974542504019_2_alg».proof.Proof.Gen.Kernel.Launch
import proofs.«135504_j88974542504019_2_alg».proof.Proof.Gen.Kernel.Skeleton
import proofs.«135504_j88974542504019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, from the grid coordinates -/

/-- The inner coordinate is 0 (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The inner coordinate is 4 (the statistics are written out). -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

abbrev VO0_6 : View sig .tc .vmem S5000x128 .f32 := (Memref.whole cc0_stg6_0 : Memref sig .tc .vmem S5000x128 .f32).view
abbrev VO0_7 : View sig .tc .vmem S8x128 .f32 := (Memref.whole cc0_stg7_0 : Memref sig .tc .vmem S8x128 .f32).view
abbrev VO0_8 : View sig .tc .vmem S8x128 .f32 := (Memref.whole cc0_stg8_0 : Memref sig .tc .vmem S8x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
/-- The two accumulators: whole scoped buffers of the kernel's own, carried between points. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers of the core that region 0 neither stages nor uses: the second region's staging buffers,
    each whole at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 c) ∗ (∃ r, prngReg c r)) := by
  unfold Pipeline.ΦA restScoped0; rw [scopedRest0_eq]; simp only [scM0_0, scM0_1, owns_whole]; try rfl

end Cert.Kernel.Hand

end
-- ==== Proof.K.Run0A.lean ====
/-
  Region 0's body run whole in one case of its two conditions: the inner coordinate is 0 and not 4: the accumulators are reset, then added into; the statistics windows are left alone.
  The body is run on whole staging memrefs, the inputs' at their contents; what its stores leave in each buffer it
  writes is found by the run, as a list of pieces (last store first).
-/
import proofs.«135504_j88974542504019_2_alg».proof.Proof.K.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (the h block; the two accumulators), with the proof that the body runs to a
    continuation that holds the inputs as they were and each written buffer with its pieces written. -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.Run0B.lean ====
/-
  Region 0's body run whole in one case of its two conditions: the inner coordinate is neither 0 nor 4: the accumulators are added into; the statistics windows are left alone.
  The body is run on whole staging memrefs, the inputs' at their contents; what its stores leave in each buffer it
  writes is found by the run, as a list of pieces (last store first).
-/
import proofs.«135504_j88974542504019_2_alg».proof.Proof.K.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (the h block; the two accumulators), with the proof that the body runs to a
    continuation that holds the inputs as they were and each written buffer with its pieces written. -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.Run0C.lean ====
/-
  Region 0's body run whole in one case of its two conditions: the inner coordinate is 4: the accumulators are added into and then broadcast into the two statistics windows.
  The body is run on whole staging memrefs, the inputs' at their contents; what its stores leave in each buffer it
  writes is found by the run, as a list of pieces (last store first).
-/
import proofs.«135504_j88974542504019_2_alg».proof.Proof.K.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (the h block; the two accumulators; the two statistics blocks), with the proof that the body runs to a
    continuation that holds the inputs as they were and each written buffer with its pieces written. -/
noncomputable def kernelRun0_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg0.lean ====
/-
  Region 0, the rest: what each case of the body leaves in the h block, the two statistics blocks and the two
  accumulators (the run's pieces read back); the accumulation over the grid's points (at a point whose inner
  coordinate is 0 the accumulators start afresh, otherwise they continue from the point before); the region's
  invariant, which carries both accumulators at what the point before left; the proof data; the body obligation.
-/
import proofs.«135504_j88974542504019_2_alg».proof.Proof.K.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves: its pieces cover each buffer it writes, and read back over anything -/

theorem cover0_A_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S5000x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 S5000x128.size (by sl_kernel_rfl) y

theorem scover0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1x128.size (by sl_kernel_rfl) y

theorem scover0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1x128.size (by sl_kernel_rfl) y

theorem cover0_B_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S5000x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S5000x128.size (by sl_kernel_rfl) y

theorem scover0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S1x128.size (by sl_kernel_rfl) y

theorem scover0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S1x128.size (by sl_kernel_rfl) y

theorem cover0_C_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S5000x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S5000x128.size (by sl_kernel_rfl) y

theorem cover0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x128.size (by sl_kernel_rfl) y

theorem cover0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x128.size (by sl_kernel_rfl) y

theorem scover0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x128.size (by sl_kernel_rfl) y

theorem scover0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x128.size (by sl_kernel_rfl) y

/-- Case A (reset, then accumulate): the h block, placeholders for the two idle statistics blocks, the two accumulators. -/
def outA (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1), VO0_7.read (Elt F) (VO0_7.writes (Elt F) VO0_7.junk []), VO0_8.read (Elt F) (VO0_8.writes (Elt F) VO0_8.junk []),
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1), VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1))

/-- Case B (accumulate): the same five, the accumulators continuing from `xs0`, `xs1`. -/
def outB (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1), VO0_7.read (Elt F) (VO0_7.writes (Elt F) VO0_7.junk []), VO0_8.read (Elt F) (VO0_8.writes (Elt F) VO0_8.junk []),
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1), VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1))

/-- Case C (accumulate, then write the statistics out): all five from the run's pieces. -/
def outC (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1), VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1), VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1),
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1), VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1))

section
variable (V : (c : Dev nD) → (b : Ref sig .tc) → Buf (Elt F) ((c : Thread nD τ).loc b))

/-! ## The accumulation over the points -/

/-- What the h block, the statistics blocks and the accumulators hold after the body at position `n`: the case the
    position's inner coordinate selects, run on the point's memrefs and input blocks, the accumulators continuing from
    what position `n - 1` left unless the case resets them. -/
def outsAt0 (c : Dev nD) : (n : ℕ) → n < cfg0.N → Vec F S5000x128 .f32 × Vec F S8x128 .f32 × Vec F S8x128 .f32 × Vec F S1x128 .f32 × Vec F S1x128 .f32
  | 0, hn => outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h0 : (n + 1) % 5 = 0 then
      if h1 : (n + 1) % 5 = 4 then False.elim (by omega)
      else outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else
      if h1 : (n + 1) % 5 = 4 then
        outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2
      else
        outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2

theorem outsAt0_A (c : Dev nD) (t : Fin cfg0.N) (h0 : t.val % 5 = 0) (h1 : ¬t.val % 5 = 4) :
    outsAt0 V c t.val t.isLt = outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The invariant: both accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 5 = 0
  · by_cases h1 : t.val % 5 = 4
    · exfalso; omega
    · -- the accumulators are reset
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outA; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ )
        isplitl [H7]; · iexists _; iexact H7
        iexists _; iexact H8
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ )
        isplitl [H7]; · iexists _; iexact H7
        iexists _; iexact H8
  · have hz : t.val ≠ 0 := fun h => h0 (by rw [h])
    by_cases h1 : t.val % 5 = 4
    · -- the statistics are written out
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ )
    · -- the accumulators continue
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ )
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: what the accumulators hold is forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end

end Cert.Kernel.Hand

end
-- ==== Proof.K.Reg1.lean ====
/-
  Region 1 (normalise, scale, shift, rectify), one control case: on whole staging memrefs holding the h block and the
  four [1,128] rows (mean, variance, scale, shift) the body leaves the output block at its one store's payload of them;
  the proof data; the body obligation.
-/
import proofs.«135504_j88974542504019_2_alg».proof.Proof.Gen.Kernel.Launch
import proofs.«135504_j88974542504019_2_alg».proof.Proof.Gen.Kernel.Skeleton
import proofs.«135504_j88974542504019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses and what it leaves -/

abbrev rBig1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- The output block after the body, from the h block `x0` and the rows `x1` (mean), `x2` (variance), `x3` (scale),
    `x4` (shift): its one store as a piece. -/
def out1_5 (x0 : Vec F S5000x128 .f32) (x1 x2 x3 x4 : Vec F S1x128 .f32) : Vec F S5000x128 .f32 :=
  View.canon [⟨rBig1, k1_pay1 (View.ld x0 rBig1) (View.ld x2 rRow1) (View.ld x1 rRow1) (View.ld x3 rRow1) (View.ld x4 rRow1)⟩]

theorem cover1_5 (p0 : Vec F S5000x128 .f32) (y : S5000x128.Idx) :
    ∃ pc ∈ ([⟨rBig1, p0⟩] : List (View.Piece (Elt F) S5000x128 .f32)), y ∈ pc.1.set :=
  View.cover_of_tiled [⟨rBig1, p0⟩] S5000x128.size (by rfl) y

set_option maxHeartbeats 2000000 in
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Main.lean ====
/-
  The whole program as four segments — the host operations before the first kernel, the first kernel's region, the
  host operations between, the second kernel's region — run from the launch to the return, with the contents of
  every unscoped buffer named at each boundary: after a host stretch the operations' fold over the contents before it,
  after a region its windows' arrays at what the pipeline's write-backs leave and every other buffer as before. The one
  run theorem reads every unscoped buffer at the last boundary's contents; the frame (the arguments end as launched)
  and the result array's contents are both read off it.
-/
import proofs.«135504_j88974542504019_2_alg».proof.Proof.K.Reg0
import proofs.«135504_j88974542504019_2_alg».proof.Proof.K.Reg1
import proofs.«135504_j88974542504019_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel's region: entered from every unscoped buffer at `W1`, left at `W2`. The generator register goes
    into the region's invariant and comes back; the two accumulators are the region's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched, and the result array ends at what the second region's write-backs leave. -/
theorem run_result : θ_run defs (onTc (τ := τ) (main (F := F))) ⟨m, fun _ => 0, ρ⟩ (fun r => ∀ c : Dev nD,
      r.2.mem ((c.tc : Thread nD τ).loc main_v49) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v49 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Hand

end
-- ==== Proof.KI.Base0.lean ====
/-
  Region 0 (the fused linear layer with its column statistics), what every case of its body shares: a window's
  block at a grid point read off the array the region is entered with; that an input's staging buffer holds its
  block at every point; the two branch conditions of the body decided over the grid (the inner coordinate is 0: the
  accumulators are reset; the inner coordinate is 4: the statistics are written out); at which points the two statistics
  windows are idle; and the region's invariant with the two accumulators split out of the scoped buffers.
-/
import proofs.«135504_j88974542504019_2_alg».proof.Proof.Gen.KernelIdeal.Launch
import proofs.«135504_j88974542504019_2_alg».proof.Proof.Gen.KernelIdeal.Skeleton
import proofs.«135504_j88974542504019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, from the grid coordinates -/

/-- The inner coordinate is 0 (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The inner coordinate is 4 (the statistics are written out). -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

abbrev VO0_6 : View sig .tc .vmem S5000x128 .f32 := (Memref.whole cc0_stg6_0 : Memref sig .tc .vmem S5000x128 .f32).view
abbrev VO0_7 : View sig .tc .vmem S8x128 .f32 := (Memref.whole cc0_stg7_0 : Memref sig .tc .vmem S8x128 .f32).view
abbrev VO0_8 : View sig .tc .vmem S8x128 .f32 := (Memref.whole cc0_stg8_0 : Memref sig .tc .vmem S8x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
/-- The two accumulators: whole scoped buffers of the kernel's own, carried between points. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers of the core that region 0 neither stages nor uses: the second region's staging buffers,
    each whole at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 c) ∗ (∃ r, prngReg c r)) := by
  unfold Pipeline.ΦA restScoped0; rw [scopedRest0_eq]; simp only [scM0_0, scM0_1, owns_whole]; try rfl

end Cert.KernelIdeal.Hand

end
-- ==== Proof.KI.Run0A.lean ====
/-
  Region 0's body run whole in one case of its two conditions: the inner coordinate is 0 and not 4: the accumulators are reset, then added into; the statistics windows are left alone.
  The body is run on whole staging memrefs, the inputs' at their contents; what its stores leave in each buffer it
  writes is found by the run, as a list of pieces (last store first).
-/
import proofs.«135504_j88974542504019_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (the h block; the two accumulators), with the proof that the body runs to a
    continuation that holds the inputs as they were and each written buffer with its pieces written. -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.Run0B.lean ====
/-
  Region 0's body run whole in one case of its two conditions: the inner coordinate is neither 0 nor 4: the accumulators are added into; the statistics windows are left alone.
  The body is run on whole staging memrefs, the inputs' at their contents; what its stores leave in each buffer it
  writes is found by the run, as a list of pieces (last store first).
-/
import proofs.«135504_j88974542504019_2_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (the h block; the two accumulators), with the proof that the body runs to a
    continuation that holds the inputs as they were and each written buffer with its pieces written. -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.Run0C.lean ====
/-
  Region 0's body run whole in one case of its two conditions: the inner coordinate is 4: the accumulators are added into and then broadcast into the two statistics windows.
  The body is run on whole staging memrefs, the inputs' at their contents; what its stores leave in each buffer it
  writes is found by the run, as a list of pieces (last store first).
-/
import proofs.«135504_j88974542504019_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (the h block; the two accumulators; the two statistics blocks), with the proof that the body runs to a
    continuation that holds the inputs as they were and each written buffer with its pieces written. -/
noncomputable def kernelRun0_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg0.lean ====
/-
  Region 0, the rest: what each case of the body leaves in the h block, the two statistics blocks and the two
  accumulators (the run's pieces read back); the accumulation over the grid's points (at a point whose inner
  coordinate is 0 the accumulators start afresh, otherwise they continue from the point before); the region's
  invariant, which carries both accumulators at what the point before left; the proof data; the body obligation.
-/
import proofs.«135504_j88974542504019_2_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves: its pieces cover each buffer it writes, and read back over anything -/

theorem cover0_A_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S5000x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 S5000x128.size (by sl_kernel_rfl) y

theorem scover0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1x128.size (by sl_kernel_rfl) y

theorem scover0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1x128.size (by sl_kernel_rfl) y

theorem cover0_B_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S5000x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S5000x128.size (by sl_kernel_rfl) y

theorem scover0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S1x128.size (by sl_kernel_rfl) y

theorem scover0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S1x128.size (by sl_kernel_rfl) y

theorem cover0_C_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S5000x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S5000x128.size (by sl_kernel_rfl) y

theorem cover0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x128.size (by sl_kernel_rfl) y

theorem cover0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x128.size (by sl_kernel_rfl) y

theorem scover0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x128.size (by sl_kernel_rfl) y

theorem scover0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x128.size (by sl_kernel_rfl) y

/-- Case A (reset, then accumulate): the h block, placeholders for the two idle statistics blocks, the two accumulators. -/
def outA (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1), VO0_7.read (Elt F) (VO0_7.writes (Elt F) VO0_7.junk []), VO0_8.read (Elt F) (VO0_8.writes (Elt F) VO0_8.junk []),
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1), VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1))

/-- Case B (accumulate): the same five, the accumulators continuing from `xs0`, `xs1`. -/
def outB (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1), VO0_7.read (Elt F) (VO0_7.writes (Elt F) VO0_7.junk []), VO0_8.read (Elt F) (VO0_8.writes (Elt F) VO0_8.junk []),
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1), VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1))

/-- Case C (accumulate, then write the statistics out): all five from the run's pieces. -/
def outC (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : Vec F S5000x128 .f32 × Vec F S8x128 .f32 × Vec F S8x128 .f32 × Vec F S1x128 .f32 × Vec F S1x128 .f32 :=
  (VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1), VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1), VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1),
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1), VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1))

section
variable (V : (c : Dev nD) → (b : Ref sig .tc) → Buf (Elt F) ((c : Thread nD τ).loc b))

/-! ## The accumulation over the points -/

/-- What the h block, the statistics blocks and the accumulators hold after the body at position `n`: the case the
    position's inner coordinate selects, run on the point's memrefs and input blocks, the accumulators continuing from
    what position `n - 1` left unless the case resets them. -/
def outsAt0 (c : Dev nD) : (n : ℕ) → n < cfg0.N → Vec F S5000x128 .f32 × Vec F S8x128 .f32 × Vec F S8x128 .f32 × Vec F S1x128 .f32 × Vec F S1x128 .f32
  | 0, hn => outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h0 : (n + 1) % 5 = 0 then
      if h1 : (n + 1) % 5 = 4 then False.elim (by omega)
      else outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else
      if h1 : (n + 1) % 5 = 4 then
        outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2
      else
        outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2

theorem outsAt0_A (c : Dev nD) (t : Fin cfg0.N) (h0 : t.val % 5 = 0) (h1 : ¬t.val % 5 = 4) :
    outsAt0 V c t.val t.isLt = outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The invariant: both accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 5 = 0
  · by_cases h1 : t.val % 5 = 4
    · exfalso; omega
    · -- the accumulators are reset
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outA; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ )
        isplitl [H7]; · iexists _; iexact H7
        iexists _; iexact H8
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ )
        isplitl [H7]; · iexists _; iexact H7
        iexists _; iexact H8
  · have hz : t.val ≠ 0 := fun h => h0 (by rw [h])
    by_cases h1 : t.val % 5 = 4
    · -- the statistics are written out
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ )
    · -- the accumulators continue
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ )
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: what the accumulators hold is forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end

end Cert.KernelIdeal.Hand

end
-- ==== Proof.KI.Reg1.lean ====
/-
  Region 1 (normalise, scale, shift, rectify), one control case: on whole staging memrefs holding the h block and the
  four [1,128] rows (mean, variance, scale, shift) the body leaves the output block at its one store's payload of them;
  the proof data; the body obligation.
-/
import proofs.«135504_j88974542504019_2_alg».proof.Proof.Gen.KernelIdeal.Launch
import proofs.«135504_j88974542504019_2_alg».proof.Proof.Gen.KernelIdeal.Skeleton
import proofs.«135504_j88974542504019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses and what it leaves -/

abbrev rBig1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- The output block after the body, from the h block `x0` and the rows `x1` (mean), `x2` (variance), `x3` (scale),
    `x4` (shift): its one store as a piece. -/
def out1_5 (x0 : Vec F S5000x128 .f32) (x1 x2 x3 x4 : Vec F S1x128 .f32) : Vec F S5000x128 .f32 :=
  View.canon [⟨rBig1, k1_pay1 (View.ld x0 rBig1) (View.ld x2 rRow1) (View.ld x1 rRow1) (View.ld x3 rRow1) (View.ld x4 rRow1)⟩]

theorem cover1_5 (p0 : Vec F S5000x128 .f32) (y : S5000x128.Idx) :
    ∃ pc ∈ ([⟨rBig1, p0⟩] : List (View.Piece (Elt F) S5000x128 .f32)), y ∈ pc.1.set :=
  View.cover_of_tiled [⟨rBig1, p0⟩] S5000x128.size (by rfl) y

set_option maxHeartbeats 2000000 in
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Main.lean ====
/-
  The whole program as four segments — the host operations before the first kernel, the first kernel's region, the
  host operations between, the second kernel's region — run from the launch to the return, with the contents of
  every unscoped buffer named at each boundary: after a host stretch the operations' fold over the contents before it,
  after a region its windows' arrays at what the pipeline's write-backs leave and every other buffer as before. The one
  run theorem reads every unscoped buffer at the last boundary's contents; the frame (the arguments end as launched)
  and the result array's contents are both read off it.
-/
import proofs.«135504_j88974542504019_2_alg».proof.Proof.KI.Reg0
import proofs.«135504_j88974542504019_2_alg».proof.Proof.KI.Reg1
import proofs.«135504_j88974542504019_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel's region: entered from every unscoped buffer at `W1`, left at `W2`. The generator register goes
    into the region's invariant and comes back; the two accumulators are the region's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched, and the result array ends at what the second region's write-backs leave. -/
theorem run_result : θ_run defs (onTc (τ := τ) (main (F := F))) ⟨m, fun _ => 0, ρ⟩ (fun r => ∀ c : Dev nD,
      r.2.mem ((c.tc : Thread nD τ).loc main_v49) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v49 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Hand

end
-- ==== Proof.KI.Pieces.lean ====
/-
  What each case of region 0's body leaves, in closed form: the run's pieces are whole-buffer stores, so reading
  them back gives the last store's payload; an accumulator zeroed and then read reads zero. The h block is the
  fused layer of the input blocks; an accumulator is what it held before (zero in the reset case) plus the block's
  column sums; a statistics block is the accumulator broadcast down its eight rows.
-/
import proofs.«135504_j88974542504019_2_alg».proof.Proof.KI.Reg0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem outA_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) : (outA c i arg2 harg2 arg3 harg3 arg4 harg4 arg5 harg5 arg6 harg6 arg7 harg7 arg8 harg8 arg9 harg9 arg10 harg10 arg11 harg11 arg12 harg12 hc0 hc1 x0 x1 x2 x3 x4 x5).1 = k0_pay6 x0 x2 x1 x3 x4 x5 := by
  unfold outA; dsimp only
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A; dsimp only; sl_unfold_words
  rw [View.canon_unit_zero (S := S5000x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outA_S0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) : (outA c i arg2 harg2 arg3 harg3 arg4 harg4 arg5 harg5 arg6 harg6 arg7 harg7 arg8 harg8 arg9 harg9 arg10 harg10 arg11 harg11 arg12 harg12 hc0 hc1 x0 x1 x2 x3 x4 x5).2.2.2.1 = k0_pay7 x0 x2 x1 x3 x4 x5 (k0_pay4 (F := F)) := by
  unfold outA; dsimp only
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A; dsimp only; sl_unfold_words
  rw [View.canon_cons_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outA_S1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) : (outA c i arg2 harg2 arg3 harg3 arg4 harg4 arg5 harg5 arg6 harg6 arg7 harg7 arg8 harg8 arg9 harg9 arg10 harg10 arg11 harg11 arg12 harg12 hc0 hc1 x0 x1 x2 x3 x4 x5).2.2.2.2 = k0_pay1 (k0_pay6 x0 x2 x1 x3 x4 x5) (k0_pay5 (F := F)) := by
  unfold outA; dsimp only
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A; dsimp only; sl_unfold_words
  rw [View.canon_cons_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outB_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 = k0_pay6 x0 x2 x1 x3 x4 x5 := by
  unfold outB; dsimp only
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B; dsimp only; sl_unfold_words
  rw [View.canon_unit_zero (S := S5000x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outB_S0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 = k0_pay7 x0 x2 x1 x3 x4 x5 xs0 := by
  unfold outB; dsimp only
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B; dsimp only; sl_unfold_words
  rw [View.canon_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outB_S1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2 = k0_pay1 (k0_pay6 x0 x2 x1 x3 x4 x5) xs1 := by
  unfold outB; dsimp only
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B; dsimp only; sl_unfold_words
  rw [View.canon_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outC_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 = k0_pay6 x0 x2 x1 x3 x4 x5 := by
  unfold outC; dsimp only
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C; dsimp only; sl_unfold_words
  rw [View.canon_unit_zero (S := S5000x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outC_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 = k0_pay2 (k0_pay7 x0 x2 x1 x3 x4 x5 xs0) := by
  unfold outC; dsimp only
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C; dsimp only; sl_unfold_words
  rw [View.canon_unit_zero (S := S8x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outC_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 = k0_pay3 (k0_pay1 (k0_pay6 x0 x2 x1 x3 x4 x5) xs1) := by
  unfold outC; dsimp only
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C; dsimp only; sl_unfold_words
  rw [View.canon_unit_zero (S := S8x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outC_S0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 = k0_pay7 x0 x2 x1 x3 x4 x5 xs0 := by
  unfold outC; dsimp only
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C; dsimp only; sl_unfold_words
  rw [View.canon_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

theorem outC_S1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (xs0 : Vec F S1x128 .f32) (xs1 : Vec F S1x128 .f32) : (outC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2 = k0_pay1 (k0_pay6 x0 x2 x1 x3 x4 x5) xs1 := by
  unfold outC; dsimp only
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C; dsimp only; sl_unfold_words
  rw [View.canon_unit_zero (S := S1x128) hz2]
  simp only [View.readAt_eq_ld, Memref.IsWhole.read_unread, View.ld_unit_zero (S := S5000x128) hz2, View.ld_unit_zero (S := S5000x1) hz2, View.ld_unit_zero (S := S128x128) hz2, View.ld_unit_zero (S := S1x128) hz2, View.readCov_unit_zero (S := S1x128) _ hz2]

end Cert.KernelIdeal.Hand

end
-- ==== Proof.MathPay.lean ====
/-
  The two kernels' block computations read at one entry, on the extended reals.

  First kernel, per block of 5000 rows: with a the block of neighbour sums, d the block of reciprocal degrees (a column),
  x the block of node features, Wlt and Wrt the transposed weight tables and b the bias row,

      h (p, q) = ((Σ_k (a (p,k) · d (p,0)) · Wlt (k,q)) + (Σ_k x (p,k) · Wrt (k,q))) + b (0,q)

  (the narrowing of the matrix unit's operands is the identity on the extended reals, and the matrix unit into a zero
  accumulator is the plain contraction); the running column sums gain Σ_p h (p,q), the running sums of squares gain
  Σ_p h (p,q)²; at the last block of a half the two running rows are copied down eight rows. Second kernel, per block:

      out (p, q) = max ((((h (p,q) − μ (0,q)) · rsqrt (v (0,q) + ε)) · γ (0,q)) + β (0,q), 0) .
-/
import proofs.«135504_j88974542504019_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Math.Pay

open Cert.KernelIdeal Cert.KernelIdeal.Gen Idealize.ShloMosaic Idealize.ShloMosaic.ValueIdx

/-! ## Three layout and reduction facts at the kernels' literal shapes -/

/-- A column [a,1] broadcast along the rows to [a,b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The sum of a [5000,128] block over its rows, at column q. -/
theorem rowsSum_at (src : FVec Ideal S5000x128 .f32) (hφ : FKind.Formats .f32)
    (hacc : (0x00000000#32 : BitVec 32) = FKind.add.neutral .f32 hφ) (q : Fin 128) :
    multiReduction .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  exact Finset.sum_congr rfl fun p _ => congrArg src (funext fun a => Fin.ext (by
    match a with
    | ⟨0, _⟩ => rfl
    | ⟨1, _⟩ => rfl))

theorem lhsIdx_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsIdx_1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhsIdx_0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhsIdx_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix unit into a zero accumulator, at (p, q): the contraction over the shared axis. -/
theorem matmul_at {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsIdx_0 _ _
    | ⟨1, _⟩ => exact (lhsIdx_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsIdx_0 _ _).trans hk
    | ⟨1, _⟩ => exact rhsIdx_1 _ _)
  rw [el, er]

/-! ## The first kernel's payloads -/

/-- The activations block at an entry. -/
theorem pay6_at (v3 : Vec Ideal S5000x128 .f32) (v5 : Vec Ideal S5000x1 .f32) (v10 : Vec Ideal S5000x128 .f32)
    (v12 v15 : Vec Ideal S128x128 .f32) (v21 : Vec Ideal S1x128 .f32) (p : Fin 5000) (q : Fin 128) :
    k0_pay6 (F := Ideal) v3 v5 v10 v12 v15 v21 (ix2 p q)
      = ((∑ k : Fin 128, (v3 (ix2 p k) * v5 (ix2 p (0 : Fin 1))) * v12 (ix2 k q))
          + (∑ k : Fin 128, v10 (ix2 p k) * v15 (ix2 k q))) + v21 (ix2 (0 : Fin 1) q) := by
  unfold k0_pay6
  simp only [shapeCast_self]
  rw [addf_apply, addf_apply, matmul_at, matmul_at, broadcastTo_1b_ab_apply]
  refine congrArg₂ (· + ·) (congrArg₂ (· + ·) (Finset.sum_congr rfl fun k _ => ?_) (Finset.sum_congr rfl fun k _ => ?_)) rfl
  · rw [truncf_apply, truncf_apply, mulf_apply, broadcastTo_a1_ab_apply]
  · rw [truncf_apply, truncf_apply]

/-- The running column sums after a block: what was there plus the block's column sums. -/
theorem pay7_at (v3 : Vec Ideal S5000x128 .f32) (v5 : Vec Ideal S5000x1 .f32) (v10 : Vec Ideal S5000x128 .f32)
    (v12 v15 : Vec Ideal S128x128 .f32) (v21 v26 : Vec Ideal S1x128 .f32) (u : Fin 1) (q : Fin 128) :
    k0_pay7 (F := Ideal) v3 v5 v10 v12 v15 v21 v26 (ix2 u q)
      = v26 (ix2 u q) + ∑ p : Fin 5000, k0_pay6 (F := Ideal) v3 v5 v10 v12 v15 v21 (ix2 p q) := by
  unfold k0_pay7
  simp only [shapeCast_self]
  rw [addf_apply, shapeCast_a_1a_apply]
  exact congrArg (v26 (ix2 u q) + ·) (rowsSum_at _ _ _ q)

/-- The running sums of squares after a block: what was there plus the block's column sums of squares. -/
theorem pay1_at (v24 : FVec Ideal S5000x128 .f32) (v33 : Vec Ideal S1x128 .f32) (u : Fin 1) (q : Fin 128) :
    k0_pay1 (F := Ideal) v24 v33 (ix2 u q) = v33 (ix2 u q) + ∑ p : Fin 5000, v24 (ix2 p q) * v24 (ix2 p q) := by
  unfold k0_pay1
  simp only [shapeCast_self]
  rw [addf_apply, shapeCast_a_1a_apply]
  exact congrArg (v33 (ix2 u q) + ·) (rowsSum_at _ _ _ q)

/-- A row copied down eight rows. -/
theorem pay2_at (v44 : Vec Ideal S1x128 .f32) (s : Fin 8) (q : Fin 128) :
    k0_pay2 (F := Ideal) v44 (ix2 s q) = v44 (ix2 (0 : Fin 1) q) := by
  unfold k0_pay2
  simp only [shapeCast_self]
  exact broadcastTo_1b_ab_apply v44 broadcasts_S1x128_S8x128 s q

/-- A row copied down eight rows. -/
theorem pay3_at (v48 : Vec Ideal S1x128 .f32) (s : Fin 8) (q : Fin 128) :
    k0_pay3 (F := Ideal) v48 (ix2 s q) = v48 (ix2 (0 : Fin 1) q) := by
  unfold k0_pay3
  simp only [shapeCast_self]
  exact broadcastTo_1b_ab_apply v48 broadcasts_S1x128_S8x128 s q

/-- The zero row the running sums start from. -/
theorem pay4_at (u : Fin 1) (q : Fin 128) : k0_pay4 (F := Ideal) (ix2 u q) = 0 := by
  unfold k0_pay4
  simp only [shapeCast_self]
  show Ideal.ofBits .f32 0x00000000#32 = 0
  exact Ideal.ofBits_zero_f32

/-- The zero row the running sums of squares start from. -/
theorem pay5_at (u : Fin 1) (q : Fin 128) : k0_pay5 (F := Ideal) (ix2 u q) = 0 := by
  unfold k0_pay5
  simp only [shapeCast_self]
  show Ideal.ofBits .f32 0x00000000#32 = 0
  exact Ideal.ofBits_zero_f32

/-! ## The second kernel's payload -/

/-- Normalise, scale, shift, rectify, at an entry (v2 the variance row, v7 the mean row, v13 the scale, v17 the shift). -/
theorem k1pay_at (v0 : Vec Ideal S5000x128 .f32) (v2 v7 v13 v17 : Vec Ideal S1x128 .f32) (p : Fin 5000) (q : Fin 128) :
    k1_pay1 (F := Ideal) v0 v2 v7 v13 v17 (ix2 p q)
      = max ((((v0 (ix2 p q) - v7 (ix2 (0 : Fin 1) q)) * Ideal.rsqrt (v2 (ix2 (0 : Fin 1) q) + Ideal.ofBits .f32 0x3727C5AC#32))
              * v13 (ix2 (0 : Fin 1) q)) + v17 (ix2 (0 : Fin 1) q)) 0 := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max _ (Ideal.ofBits .f32 0x00000000#32) = _
  rw [Ideal.ofBits_zero_f32]
  rfl

end Cert.Math.Pay

end
-- ==== Proof.KI.ValOut.lean ====
/-
  Region 1 read as values on the extended reals: point t's output block is rows 5000·t … of one whole-array function —
  entry (r, q) is max (((h (r, q) − mean q) · rsqrt (variance q + ε)) · scale q + shift q, 0) of the arrays the region is
  entered with — and the ten blocks tile the array, so the output array ends at that function.
-/
import proofs.«135504_j88974542504019_2_alg».proof.Proof.KI.Pieces
import proofs.«135504_j88974542504019_2_alg».proof.Proof.KI.Reg1
import proofs.«135504_j88974542504019_2_alg».proof.Proof.MathPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt1 (t : Fin cfg1.N) (p : Fin 5000) : t.val * 5000 + p.val < 50000 := by
  have : t.val < 10 := lt_of_lt_of_eq t.isLt N_1
  have := p.isLt; omega

section
variable (V : (c : Dev nD) → (b : Ref sig .tc) → Buf (Elt Ideal) ((c : Thread nD τ).loc b))

theorem rd1_0 (c : Dev nD) (t : Fin cfg1.N) (p : Fin 5000) (q : Fin 128) :
    iblk1 V c 0 t (ix2 p q) = V c main_v26_0 (ix2 ⟨t.val * 5000 + p.val, row_lt1 t p⟩ q) := by
  show V c main_v26_0 (((cfg1.win 0).blk t).view.emb (ix2 p q)) = _
  refine congrArg _ ?_
  funext a; apply Fin.ext
  match a with
  | ⟨0, _⟩ => show win1_0.index t (0 : Fin 2) * 5000 + 1 * p.val = t.val * 5000 + p.val; rw [(idx1_facts t).1]; omega
  | ⟨1, _⟩ => show win1_0.index t (1 : Fin 2) * 128 + 1 * q.val = q.val; rw [(idx1_facts t).2.1]; omega

theorem rd1_1 (c : Dev nD) (t : Fin cfg1.N) (u : Fin 1) (q : Fin 128) :
    iblk1 V c 1 t (ix2 u q) = V c main_v45 (ix2 u q) := by
  show V c main_v45 (((cfg1.win 1).blk t).view.emb (ix2 u q)) = _
  refine congrArg _ ?_
  funext a; apply Fin.ext
  match a with
  | ⟨0, _⟩ => show win1_1.index t (0 : Fin 2) * 1 + 1 * u.val = u.val; rw [(idx1_facts t).2.2.1]; omega
  | ⟨1, _⟩ => show win1_1.index t (1 : Fin 2) * 128 + 1 * q.val = q.val; rw [(idx1_facts t).2.2.2.1]; omega

theorem rd1_2 (c : Dev nD) (t : Fin cfg1.N) (u : Fin 1) (q : Fin 128) :
    iblk1 V c 2 t (ix2 u q) = V c main_v46 (ix2 u q) := by
  show V c main_v46 (((cfg1.win 2).blk t).view.emb (ix2 u q)) = _
  refine congrArg _ ?_
  funext a; apply Fin.ext
  match a with
  | ⟨0, _⟩ => show win1_2.index t (0 : Fin 2) * 1 + 1 * u.val = u.val; rw [(idx1_facts t).2.2.2.2.1]; omega
  | ⟨1, _⟩ => show win1_2.index t (1 : Fin 2) * 128 + 1 * q.val = q.val; rw [(idx1_facts t).2.2.2.2.2.1]; omega

theorem rd1_3 (c : Dev nD) (t : Fin cfg1.N) (u : Fin 1) (q : Fin 128) :
    iblk1 V c 3 t (ix2 u q) = V c main_v47 (ix2 u q) := by
  show V c main_v47 (((cfg1.win 3).blk t).view.emb (ix2 u q)) = _
  refine congrArg _ ?_
  funext a; apply Fin.ext
  match a with
  | ⟨0, _⟩ => show win1_3.index t (0 : Fin 2) * 1 + 1 * u.val = u.val; rw [(idx1_facts t).2.2.2.2.2.2.1]; omega
  | ⟨1, _⟩ => show win1_3.index t (1 : Fin 2) * 128 + 1 * q.val = q.val; rw [(idx1_facts t).2.2.2.2.2.2.2.1]; omega

theorem rd1_4 (c : Dev nD) (t : Fin cfg1.N) (u : Fin 1) (q : Fin 128) :
    iblk1 V c 4 t (ix2 u q) = V c main_v48 (ix2 u q) := by
  show V c main_v48 (((cfg1.win 4).blk t).view.emb (ix2 u q)) = _
  refine congrArg _ ?_
  funext a; apply Fin.ext
  match a with
  | ⟨0, _⟩ => show win1_4.index t (0 : Fin 2) * 1 + 1 * u.val = u.val; rw [(idx1_facts t).2.2.2.2.2.2.2.2.1]; omega
  | ⟨1, _⟩ => show win1_4.index t (1 : Fin 2) * 128 + 1 * q.val = q.val; rw [(idx1_facts t).2.2.2.2.2.2.2.2.2.1]; omega

end

/-- Row r, channel q of the normalised, scaled, shifted and rectified output. -/
def Orc (h : S50000x128.Idx → EReal) (mu var g b : S1x128.Idx → EReal) (r : Fin 50000) (q : Fin 128) : EReal :=
  max ((((h (ix2 r q) - mu (ix2 (0 : Fin 1) q)) * Ideal.rsqrt (var (ix2 (0 : Fin 1) q) + Ideal.ofBits .f32 0x3727C5AC#32)) * g (ix2 (0 : Fin 1) q)) + b (ix2 (0 : Fin 1) q)) 0

def Oarr (h : S50000x128.Idx → EReal) (mu var g b : S1x128.Idx → EReal) : S50000x128.Idx → EReal :=
  fun i => Orc h mu var g b (i 0) (i 1)

theorem Oarr_ix2 (h mu var g b) (r : Fin 50000) (q : Fin 128) : Oarr h mu var g b (ix2 r q) = Orc h mu var g b r q := rfl

section
variable (V : (c : Dev nD) → (b : Ref sig .tc) → Buf (Elt Ideal) ((c : Thread nD τ).loc b))

theorem out1_at (c : Dev nD) (t : Fin cfg1.N) (p : Fin 5000) (q : Fin 128) :
    out1_5 (iblk1 V c 0 t) (iblk1 V c 1 t) (iblk1 V c 2 t) (iblk1 V c 3 t) (iblk1 V c 4 t) (ix2 p q)
      = Orc (V c main_v26_0) (V c main_v45) (V c main_v46) (V c main_v47) (V c main_v48) ⟨t.val * 5000 + p.val, row_lt1 t p⟩ q := by
  unfold out1_5
  rw [View.canon_unit_zero (S := S5000x128) hz2]
  simp only [View.ld_unit_zero (S := S5000x128) hz2, View.ld_unit_zero (S := S1x128) hz2]
  refine (Cert.Math.Pay.k1pay_at (iblk1 V c 0 t) (iblk1 V c 2 t) (iblk1 V c 1 t) (iblk1 V c 3 t) (iblk1 V c 4 t) p q).trans ?_
  simp only [rd1_0, rd1_1, rd1_2, rd1_3, rd1_4]
  rfl

theorem blk5_read (G : S50000x128.Idx → EReal) (t : Fin cfg1.N) (X : Vec Ideal S5000x128 .f32)
    (h : ∀ (p : Fin 5000) (q : Fin 128), X (ix2 p q) = G (ix2 ⟨t.val * 5000 + p.val, row_lt1 t p⟩ q)) :
    X = ((cfg1.win 5).blk t).view.read (Elt Ideal) G := by
  funext j
  obtain ⟨p, q, rfl⟩ : ∃ (p : Fin 5000) (q : Fin 128), j = ix2 p q := ⟨j 0, j 1, eq_ix2 j⟩
  rw [h]
  show G _ = G (((cfg1.win 5).blk t).view.emb (ix2 p q))
  refine congrArg G ?_
  funext a; apply Fin.ext
  match a with
  | ⟨0, _⟩ => show t.val * 5000 + p.val = win1_5.index t (0 : Fin 2) * 5000 + 1 * p.val; rw [(idx1_facts t).2.2.2.2.2.2.2.2.2.2.1]; omega
  | ⟨1, _⟩ => show q.val = win1_5.index t (1 : Fin 2) * 128 + 1 * q.val; rw [(idx1_facts t).2.2.2.2.2.2.2.2.2.2.2]; omega

theorem flushed1_5_eq (c : Dev nD) (t : Fin cfg1.N) :
    (dat1 V c).flushed 5 t = ((cfg1.win 5).blk t).view.read (Elt Ideal)
      (Oarr (V c main_v26_0) (V c main_v45) (V c main_v46) (V c main_v47) (V c main_v48)) := by
  show (cfg1.win 5).cut (grid1.coords t) ((dat1 V c).after 5 t) = _
  rw [after1_5]
  exact blk5_read _ t _ fun p q => (out1_at V c t p q).trans (Oarr_ix2 _ _ _ _ _ _ q).symm

theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by have hN := N_1; show (i 0).val / 5000 < grid1.N; omega⟩, flush1_5 _, ?_⟩
  rw [mem_blk5]
  intro a
  match a with
  | ⟨0, _⟩ =>
    show win1_5.index _ (0 : Fin 2) * 5000 ≤ (i 0).val ∧ (i 0).val < win1_5.index _ (0 : Fin 2) * 5000 + 5000
    rw [(idx1_facts _).2.2.2.2.2.2.2.2.2.2.1]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [(idx1_facts _).2.2.2.2.2.2.2.2.2.2.2]; omega

/-- The output array after region 1. -/
theorem final1_5 (c : Dev nD) : (dat1 V c).arrAt 5 cfg1.N
    = Oarr (V c main_v26_0) (V c main_v45) (V c main_v46) (V c main_v47) (V c main_v48) :=
  (dat1 V c).arrAt_eq_of_cover 5 _ (fun t _ => flushed1_5_eq V c t) cover5

end

end Cert.KernelIdeal.Hand

end
-- ==== Proof.KI.ValAcc.lean ====
/-
  The accumulation over the grid's points in closed form: the h block a point leaves is the fused layer of that
  point's input blocks; an accumulator after a point is what it held after the point before (zero, when the point's
  inner coordinate is 0) plus the h block's column sums (of its squares, for the second accumulator); at a point whose
  inner coordinate is 4 each statistics block is its accumulator broadcast down eight rows.
-/
import proofs.«135504_j88974542504019_2_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The h block point `t` leaves: the fused layer of the point's input blocks. -/
def hblk (c : Dev nD) (t : Fin cfg0.N) : Vec F S5000x128 .f32 :=
  k0_pay6 (iblk0 V c 0 t) (iblk0 V c 2 t) (iblk0 V c 1 t) (iblk0 V c 3 t) (iblk0 V c 4 t) (iblk0 V c 5 t)

theorem out6_eq (c : Dev nD) (t : Fin cfg0.N) : (outsAt0 V c t.val t.isLt).1 = hblk V c t := by
  unfold hblk
  by_cases h0 : t.val % 5 = 0
  · have h1 : ¬t.val % 5 = 4 := by omega
    rw [outsAt0_A V c t h0 h1, outA_6]
  · by_cases h1 : t.val % 5 = 4
    · rw [outsAt0_C V c t h0 h1, outC_6]
    · rw [outsAt0_B V c t h0 h1, outB_6]

theorem sc0_reset (c : Dev nD) (t : Fin cfg0.N) (h0 : t.val % 5 = 0) :
    (outsAt0 V c t.val t.isLt).2.2.2.1 = k0_pay7 (iblk0 V c 0 t) (iblk0 V c 2 t) (iblk0 V c 1 t) (iblk0 V c 3 t) (iblk0 V c 4 t) (iblk0 V c 5 t) (k0_pay4 (F := F)) := by
  have h1 : ¬t.val % 5 = 4 := by omega
  rw [outsAt0_A V c t h0 h1, outA_S0]

theorem sc0_step (c : Dev nD) (t : Fin cfg0.N) (h0 : ¬t.val % 5 = 0) :
    (outsAt0 V c t.val t.isLt).2.2.2.1 = k0_pay7 (iblk0 V c 0 t) (iblk0 V c 2 t) (iblk0 V c 1 t) (iblk0 V c 3 t) (iblk0 V c 4 t) (iblk0 V c 5 t) (outsAt0 V c (t.val - 1) (Nat.lt_of_le_of_lt (Nat.sub_le _ _) t.isLt)).2.2.2.1 := by
  by_cases h1 : t.val % 5 = 4
  · rw [outsAt0_C V c t h0 h1, outC_S0]
  · rw [outsAt0_B V c t h0 h1, outB_S0]

theorem sc1_reset (c : Dev nD) (t : Fin cfg0.N) (h0 : t.val % 5 = 0) :
    (outsAt0 V c t.val t.isLt).2.2.2.2 = k0_pay1 (hblk V c t) (k0_pay5 (F := F)) := by
  have h1 : ¬t.val % 5 = 4 := by omega
  unfold hblk
  rw [outsAt0_A V c t h0 h1, outA_S1]

theorem sc1_step (c : Dev nD) (t : Fin cfg0.N) (h0 : ¬t.val % 5 = 0) :
    (outsAt0 V c t.val t.isLt).2.2.2.2 = k0_pay1 (hblk V c t) (outsAt0 V c (t.val - 1) (Nat.lt_of_le_of_lt (Nat.sub_le _ _) t.isLt)).2.2.2.2 := by
  unfold hblk
  by_cases h1 : t.val % 5 = 4
  · rw [outsAt0_C V c t h0 h1, outC_S1]
  · rw [outsAt0_B V c t h0 h1, outB_S1]

theorem out7_flush (c : Dev nD) (t : Fin cfg0.N) (h1 : t.val % 5 = 4) :
    (outsAt0 V c t.val t.isLt).2.1 = k0_pay2 (outsAt0 V c t.val t.isLt).2.2.2.1 := by
  have h0 : ¬t.val % 5 = 0 := by omega
  rw [outsAt0_C V c t h0 h1, outC_7, outC_S0]

theorem out8_flush (c : Dev nD) (t : Fin cfg0.N) (h1 : t.val % 5 = 4) :
    (outsAt0 V c t.val t.isLt).2.2.1 = k0_pay3 (outsAt0 V c t.val t.isLt).2.2.2.2 := by
  have h0 : ¬t.val % 5 = 0 := by omega
  rw [outsAt0_C V c t h0 h1, outC_8, outC_S1]

end

end Cert.KernelIdeal.Hand

end
-- ==== Proof.KI.ValH.lean ====
/-
  Region 0 read as values on the extended reals. A block of a row-tiled window at point t holds rows
  5000·t … 5000·t + 4999 of its array; the weight tables and the bias row are whole at every point. So the h block a
  point leaves is rows 5000·t … of ONE whole-array function (the layer applied to the arrays the region is entered with),
  and since every point writes its h block back and the blocks tile the array, the h array ends at that function.
-/
import proofs.«135504_j88974542504019_2_alg».proof.Proof.KI.ValAcc
import proofs.«135504_j88974542504019_2_alg».proof.Proof.MathPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-! ## Where the blocks sit (decided over the ten points) -/

theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val / 5 ∧ win0_7.index t (1 : Fin 2) = 0
    ∧ win0_8.index t (0 : Fin 2) = t.val / 5 ∧ win0_8.index t (1 : Fin 2) = 0 :=
  (by decide +kernel : ∀ t : Fin grid0.N, _)

theorem row_lt (t : Fin cfg0.N) (p : Fin 5000) : t.val * 5000 + p.val < 50000 := by
  have : t.val < 10 := lt_of_lt_of_eq t.isLt N_0
  have := p.isLt; omega

section
variable (V : (c : Dev nD) → (b : Ref sig .tc) → Buf (Elt Ideal) ((c : Thread nD τ).loc b))

/-! ## The input blocks read at explicit coordinates -/

theorem rd0_0 (c : Dev nD) (t : Fin cfg0.N) (p : Fin 5000) (k : Fin 128) :
    iblk0 V c 0 t (ix2 p k) = V c main_v13 (ix2 ⟨t.val * 5000 + p.val, row_lt t p⟩ k) := by
  show V c main_v13 (((cfg0.win 0).blk t).view.emb (ix2 p k)) = _
  refine congrArg _ ?_
  funext a; apply Fin.ext
  match a with
  | ⟨0, _⟩ => show win0_0.index t (0 : Fin 2) * 5000 + 1 * p.val = t.val * 5000 + p.val; rw [(idx0_facts t).1]; omega
  | ⟨1, _⟩ => show win0_0.index t (1 : Fin 2) * 128 + 1 * k.val = k.val; rw [(idx0_facts t).2.1]; omega

theorem rd0_1 (c : Dev nD) (t : Fin cfg0.N) (p : Fin 5000) (k : Fin 128) :
    iblk0 V c 1 t (ix2 p k) = V c main_arg0 (ix2 ⟨t.val * 5000 + p.val, row_lt t p⟩ k) := by
  show V c main_arg0 (((cfg0.win 1).blk t).view.emb (ix2 p k)) = _
  refine congrArg _ ?_
  funext a; apply Fin.ext
  match a with
  | ⟨0, _⟩ => show win0_1.index t (0 : Fin 2) * 5000 + 1 * p.val = t.val * 5000 + p.val; rw [(idx0_facts t).2.2.1]; omega
  | ⟨1, _⟩ => show win0_1.index t (1 : Fin 2) * 128 + 1 * k.val = k.val; rw [(idx0_facts t).2.2.2.1]; omega

theorem rd0_2 (c : Dev nD) (t : Fin cfg0.N) (p : Fin 5000) (u : Fin 1) :
    iblk0 V c 2 t (ix2 p u) = V c main_v22 (ix2 ⟨t.val * 5000 + p.val, row_lt t p⟩ u) := by
  show V c main_v22 (((cfg0.win 2).blk t).view.emb (ix2 p u)) = _
  refine congrArg _ ?_
  funext a; apply Fin.ext
  match a with
  | ⟨0, _⟩ => show win0_2.index t (0 : Fin 2) * 5000 + 1 * p.val = t.val * 5000 + p.val; rw [(idx0_facts t).2.2.2.2.1]; omega
  | ⟨1, _⟩ => show win0_2.index t (1 : Fin 2) * 1 + 1 * u.val = u.val; rw [(idx0_facts t).2.2.2.2.2.1]; omega

theorem rd0_3 (c : Dev nD) (t : Fin cfg0.N) (k q : Fin 128) :
    iblk0 V c 3 t (ix2 k q) = V c main_v23 (ix2 k q) := by
  show V c main_v23 (((cfg0.win 3).blk t).view.emb (ix2 k q)) = _
  refine congrArg _ ?_
  funext a; apply Fin.ext
  match a with
  | ⟨0, _⟩ => show win0_3.index t (0 : Fin 2) * 128 + 1 * k.val = k.val; rw [(idx0_facts t).2.2.2.2.2.2.1]; omega
  | ⟨1, _⟩ => show win0_3.index t (1 : Fin 2) * 128 + 1 * q.val = q.val; rw [(idx0_facts t).2.2.2.2.2.2.2.1]; omega

theorem rd0_4 (c : Dev nD) (t : Fin cfg0.N) (k q : Fin 128) :
    iblk0 V c 4 t (ix2 k q) = V c main_v24 (ix2 k q) := by
  show V c main_v24 (((cfg0.win 4).blk t).view.emb (ix2 k q)) = _
  refine congrArg _ ?_
  funext a; apply Fin.ext
  match a with
  | ⟨0, _⟩ => show win0_4.index t (0 : Fin 2) * 128 + 1 * k.val = k.val; rw [(idx0_facts t).2.2.2.2.2.2.2.2.1]; omega
  | ⟨1, _⟩ => show win0_4.index t (1 : Fin 2) * 128 + 1 * q.val = q.val; rw [(idx0_facts t).2.2.2.2.2.2.2.2.2.1]; omega

theorem rd0_5 (c : Dev nD) (t : Fin cfg0.N) (u : Fin 1) (q : Fin 128) :
    iblk0 V c 5 t (ix2 u q) = V c main_v25 (ix2 u q) := by
  show V c main_v25 (((cfg0.win 5).blk t).view.emb (ix2 u q)) = _
  refine congrArg _ ?_
  funext a; apply Fin.ext
  match a with
  | ⟨0, _⟩ => show win0_5.index t (0 : Fin 2) * 1 + 1 * u.val = u.val; rw [(idx0_facts t).2.2.2.2.2.2.2.2.2.2.1]; omega
  | ⟨1, _⟩ => show win0_5.index t (1 : Fin 2) * 128 + 1 * q.val = q.val; rw [(idx0_facts t).2.2.2.2.2.2.2.2.2.2.2.1]; omega

end

/-! ## The layer as one function of whole arrays -/

/-- Row r, channel q of the layer: the aggregated row scaled by the reciprocal degree through the first table, the
    node's own row through the second, then the bias (the tables already laid input-major). -/
def Hrc (a x : S50000x128.Idx → EReal) (d : S50000x1.Idx → EReal) (wl wr : S128x128.Idx → EReal) (b : S1x128.Idx → EReal)
    (r : Fin 50000) (q : Fin 128) : EReal :=
  ((∑ k : Fin 128, (a (ix2 r k) * d (ix2 r (0 : Fin 1))) * wl (ix2 k q)) + (∑ k : Fin 128, x (ix2 r k) * wr (ix2 k q))) + b (ix2 (0 : Fin 1) q)

def Harr (a x : S50000x128.Idx → EReal) (d : S50000x1.Idx → EReal) (wl wr : S128x128.Idx → EReal) (b : S1x128.Idx → EReal) :
    S50000x128.Idx → EReal := fun i => Hrc a x d wl wr b (i 0) (i 1)

theorem Harr_ix2 (a x d wl wr b) (r : Fin 50000) (q : Fin 128) : Harr a x d wl wr b (ix2 r q) = Hrc a x d wl wr b r q := rfl

section
variable (V : (c : Dev nD) → (b : Ref sig .tc) → Buf (Elt Ideal) ((c : Thread nD τ).loc b))

/-- The arrays region 0 is entered with, as the layer's arguments. -/
abbrev H0 (c : Dev nD) : Fin 50000 → Fin 128 → EReal :=
  Hrc (V c main_v13) (V c main_arg0) (V c main_v22) (V c main_v23) (V c main_v24) (V c main_v25)

/-- The h block point `t` leaves, at row p and channel q, is the layer at row 5000·t + p. -/
theorem hblk_at (c : Dev nD) (t : Fin cfg0.N) (p : Fin 5000) (q : Fin 128) :
    hblk V c t (ix2 p q) = H0 V c ⟨t.val * 5000 + p.val, row_lt t p⟩ q := by
  unfold hblk
  refine (Cert.Math.Pay.pay6_at (iblk0 V c 0 t) (iblk0 V c 2 t) (iblk0 V c 1 t) (iblk0 V c 3 t) (iblk0 V c 4 t) (iblk0 V c 5 t) p q).trans ?_
  simp only [rd0_0, rd0_1, rd0_2, rd0_3, rd0_4, rd0_5]
  rfl

/-- A [5000,128] block whose entry (p, q) is a whole-array function at row 5000·t + p is that function's block t
    through window 6. -/
theorem blk6_read (G : S50000x128.Idx → EReal) (t : Fin cfg0.N) (X : Vec Ideal S5000x128 .f32)
    (h : ∀ (p : Fin 5000) (q : Fin 128), X (ix2 p q) = G (ix2 ⟨t.val * 5000 + p.val, row_lt t p⟩ q)) :
    X = ((cfg0.win 6).blk t).view.read (Elt Ideal) G := by
  funext j
  obtain ⟨p, q, rfl⟩ : ∃ (p : Fin 5000) (q : Fin 128), j = ix2 p q := ⟨j 0, j 1, eq_ix2 j⟩
  rw [h]
  show G _ = G (((cfg0.win 6).blk t).view.emb (ix2 p q))
  refine congrArg G ?_
  funext a; apply Fin.ext
  match a with
  | ⟨0, _⟩ => show t.val * 5000 + p.val = win0_6.index t (0 : Fin 2) * 5000 + 1 * p.val; rw [(idx0_facts t).2.2.2.2.2.2.2.2.2.2.2.2.1]; omega
  | ⟨1, _⟩ => show q.val = win0_6.index t (1 : Fin 2) * 128 + 1 * q.val; rw [(idx0_facts t).2.2.2.2.2.2.2.2.2.2.2.2.2.1]; omega

theorem flushed0_6_eq (c : Dev nD) (t : Fin cfg0.N) :
    (dat0 V c).flushed 6 t = ((cfg0.win 6).blk t).view.read (Elt Ideal)
      (Harr (V c main_v13) (V c main_arg0) (V c main_v22) (V c main_v23) (V c main_v24) (V c main_v25)) := by
  show (cfg0.win 6).cut (grid0.coords t) ((dat0 V c).after 6 t) = _
  rw [after0_6, out6_eq]
  exact blk6_read _ t (hblk V c t) fun p q => (hblk_at V c t p q).trans (Harr_ix2 _ _ _ _ _ _ _ q).symm

theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26_0).slice (win0_6.rect t)).set ↔ _
  rw [View.set_slice_whole, Rect.mem_set_unit]
  exact Iff.rfl

theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 5000, by have hN := N_0; show (i 0).val / 5000 < grid0.N; omega⟩, flush0_6 _, ?_⟩
  rw [mem_blk6]
  intro a
  match a with
  | ⟨0, _⟩ =>
    show win0_6.index _ (0 : Fin 2) * 5000 ≤ (i 0).val ∧ (i 0).val < win0_6.index _ (0 : Fin 2) * 5000 + 5000
    rw [(idx0_facts _).2.2.2.2.2.2.2.2.2.2.2.2.1]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [(idx0_facts _).2.2.2.2.2.2.2.2.2.2.2.2.2.1]; omega

/-- The h array after region 0: the layer of the arrays the region is entered with. -/
theorem final0_6 (c : Dev nD) : (dat0 V c).arrAt 6 cfg0.N
    = Harr (V c main_v13) (V c main_arg0) (V c main_v22) (V c main_v23) (V c main_v24) (V c main_v25) :=
  (dat0 V c).arrAt_eq_of_cover 6 _ (fun t _ => flushed0_6_eq V c t) cover6

end

end Cert.KernelIdeal.Hand

end
-- ==== Proof.LibSumSplit.lean ====
/-
  Splitting a sum over `Fin (P * K * T)` into a triple sum: an index `j < P * K * T` is written, in exactly one
  way, as `j = (p * K + k) * T + q` with `p < P`, `k < K`, `q < T` (its digits in the mixed radix `(P, K, T)`),
  so a sum over all `j` of a function of the number `j` is the sum over the digits. Stated in any commutative
  additive monoid.
-/
import Mathlib.Algebra.BigOperators.Fin
import Mathlib.Logic.Equiv.Fin.Basic

open scoped BigOperators

namespace Cert.SumSplit

variable {M : Type*} [AddCommMonoid M]

/-- A sum over `Fin (A * B)` of a function of the number is the double sum over the two digits `a < A`, `b < B`
    of the function at `a * B + b`. -/
theorem sum_mul (A B : ℕ) (g : ℕ → M) :
    ∑ j : Fin (A * B), g j.val = ∑ a : Fin A, ∑ b : Fin B, g (a.val * B + b.val) := by
  refine ((finProdFinEquiv (m := A) (n := B)).sum_comp (fun j : Fin (A * B) => g j.val)).symm.trans ?_
  rw [Fintype.sum_prod_type]
  refine Finset.sum_congr rfl fun a _ => Finset.sum_congr rfl fun b _ => ?_
  show g ((finProdFinEquiv (a, b) : Fin (A * B)) : ℕ) = _
  rw [finProdFinEquiv_apply_val, add_comm, mul_comm]

/-- A sum over `Fin (P * K * T)` of a function of the number is the triple sum over the digits `p < P`, `k < K`,
    `q < T` of the function at `(p * K + k) * T + q`. -/
theorem sum_split (P K T : ℕ) (f : ℕ → M) :
    ∑ j : Fin (P * K * T), f j.val
      = ∑ p : Fin P, ∑ k : Fin K, ∑ q : Fin T, f ((p.val * K + k.val) * T + q.val) := by
  rw [sum_mul (P * K) T f]
  exact sum_mul P K (fun a => ∑ q : Fin T, f (a * T + q.val))

end Cert.SumSplit
-- ==== Proof.KI.ValStats.lean ====
/-
  Region 0's two accumulators read as values. Each accumulator after a point is what it held after the point before
  (zero when the point opens a run of five) plus that point's block sum, so after the last point of a run it holds the
  run's five block sums; the statistics array holds that, in the rows of the run's block; and the two runs' totals
  together are the sum over all fifty thousand rows of the layer (of its squares, for the second accumulator), since
  row r is row r mod 5000 of block r / 5000 and block t belongs to run t / 5.
-/
import proofs.«135504_j88974542504019_2_alg».proof.Proof.KI.ValH
import proofs.«135504_j88974542504019_2_alg».proof.Proof.LibSumSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

theorem srow_lt (t : Fin cfg0.N) (s : Fin 8) : t.val / 5 * 8 + s.val < 16 := by
  have : t.val < 10 := lt_of_lt_of_eq t.isLt N_0
  have := s.isLt; omega

section
variable (V : (c : Dev nD) → (b : Ref sig .tc) → Buf (Elt Ideal) ((c : Thread nD τ).loc b)) (c : Dev nD)

/-- The layer's row n at channel q as a function of the natural number n (zero beyond the array); and its square. -/
def hn0 (q : Fin 128) (n : ℕ) : EReal := if h : n < 50000 then H0 V c ⟨n, h⟩ q else 0
def hn1 (q : Fin 128) (n : ℕ) : EReal := if h : n < 50000 then H0 V c ⟨n, h⟩ q * H0 V c ⟨n, h⟩ q else 0
/-- The column sum of block n (of its squares). -/
def M0 (q : Fin 128) (n : ℕ) : EReal := ∑ p : Fin 5000, hn0 V c q (n * 5000 + p.val)
def M1 (q : Fin 128) (n : ℕ) : EReal := ∑ p : Fin 5000, hn1 V c q (n * 5000 + p.val)

theorem hn0_of_lt (q : Fin 128) (n : ℕ) (h : n < 50000) : hn0 V c q n = H0 V c ⟨n, h⟩ q := by
  unfold hn0; rw [dif_pos h]
theorem hn1_of_lt (q : Fin 128) (n : ℕ) (h : n < 50000) : hn1 V c q n = H0 V c ⟨n, h⟩ q * H0 V c ⟨n, h⟩ q := by
  unfold hn1; rw [dif_pos h]

theorem colsum0 (t : Fin cfg0.N) (q : Fin 128) : ∑ p : Fin 5000, hblk V c t (ix2 p q) = M0 V c q t.val :=
  Finset.sum_congr rfl fun p _ => (hblk_at V c t p q).trans (hn0_of_lt V c q _ (row_lt t p)).symm

theorem colsum1 (t : Fin cfg0.N) (q : Fin 128) : ∑ p : Fin 5000, hblk V c t (ix2 p q) * hblk V c t (ix2 p q) = M1 V c q t.val :=
  Finset.sum_congr rfl fun p _ => by rw [hblk_at V c t p q]; exact (hn1_of_lt V c q _ (row_lt t p)).symm

/-! ## Accumulator 0 -/

/-- Accumulator 0 after the body at position n, channel by channel. -/
def a0 (n : ℕ) (h : n < cfg0.N) : Fin 128 → EReal := fun q => (outsAt0 V c n h).2.2.2.1 (ix2 (0 : Fin 1) q)

theorem a0_congr (n n' : ℕ) (e : n = n') (h : n < cfg0.N) (h' : n' < cfg0.N) (q : Fin 128) : a0 V c n h q = a0 V c n' h' q := by
  subst e; rfl

theorem a0_reset (n : ℕ) (h : n < cfg0.N) (h0 : n % 5 = 0) : a0 V c n h = fun q => 0 + M0 V c q n := by
  funext q
  show (outsAt0 V c n h).2.2.2.1 (ix2 (0 : Fin 1) q) = _
  rw [show (outsAt0 V c n h).2.2.2.1 = _ from sc0_reset V c ⟨n, h⟩ h0]
  refine (Cert.Math.Pay.pay7_at _ _ _ _ _ _ _ (0 : Fin 1) q).trans ?_
  rw [Cert.Math.Pay.pay4_at]
  exact congrArg (0 + ·) (colsum0 V c ⟨n, h⟩ q)

theorem a0_step (n : ℕ) (h : n + 1 < cfg0.N) (h0 : ¬(n + 1) % 5 = 0) :
    a0 V c (n + 1) h = fun q => a0 V c n (Nat.lt_of_succ_lt h) q + M0 V c q (n + 1) := by
  funext q
  show (outsAt0 V c (n + 1) h).2.2.2.1 (ix2 (0 : Fin 1) q) = (outsAt0 V c n (Nat.lt_of_succ_lt h)).2.2.2.1 (ix2 (0 : Fin 1) q) + _
  rw [show (outsAt0 V c (n + 1) h).2.2.2.1 = _ from sc0_step V c ⟨n + 1, h⟩ h0]
  refine (Cert.Math.Pay.pay7_at _ _ _ _ _ _ _ (0 : Fin 1) q).trans ?_
  exact congrArg (_ + ·) (colsum0 V c ⟨n + 1, h⟩ q)

/-- After the last point of a run of five (positions 5p … 5p + 4) the accumulator holds the run's five block sums. -/
theorem tot0 (p : ℕ) (hp : 5 * p + 4 < cfg0.N) (q : Fin 128) :
    a0 V c (5 * p + 4) hp q = 0 + ∑ s ∈ Finset.range 5, M0 V c q (5 * p + s) :=
  (congrFun (Pipeline.eq_accAt (a0 V c) 5 (fun n _ q => 0 + M0 V c q n) (fun n _ acc q => acc q + M0 V c q n)
      (fun n h h0 => a0_reset V c n h h0) (fun n h h0 => a0_step V c n h h0) p 4 (by decide) hp) q).trans
    (Pipeline.accAt_add_apply (fun n _ q => 0 + M0 V c q n) (fun n _ acc q => acc q + M0 V c q n) (fun _ => 0) (fun n q => M0 V c q n)
      (5 * p) 4 (fun _ _ => rfl) (fun _ _ _ _ _ _ => rfl) 4 le_rfl hp q)

/-- What the statistics array 0 holds: in the rows of core p's block, core p's accumulator after its last point. -/
def a0tot (p : ℕ) (q : Fin 128) : EReal := if h : 5 * p + 4 < cfg0.N then a0 V c (5 * p + 4) h q else 0
def G7 : S16x128.Idx → EReal := fun i => a0tot V c ((i 0).val / 8) (i 1)

theorem blk7_read (G : S16x128.Idx → EReal) (t : Fin cfg0.N) (X : Vec Ideal S8x128 .f32)
    (h : ∀ (s : Fin 8) (q : Fin 128), X (ix2 s q) = G (ix2 ⟨t.val / 5 * 8 + s.val, srow_lt t s⟩ q)) :
    X = ((cfg0.win 7).blk t).view.read (Elt Ideal) G := by
  funext j
  obtain ⟨s, q, rfl⟩ : ∃ (s : Fin 8) (q : Fin 128), j = ix2 s q := ⟨j 0, j 1, eq_ix2 j⟩
  rw [h]
  show G _ = G (((cfg0.win 7).blk t).view.emb (ix2 s q))
  refine congrArg G ?_
  funext a; apply Fin.ext
  match a with
  | ⟨0, _⟩ => show t.val / 5 * 8 + s.val = win0_7.index t (0 : Fin 2) * 8 + 1 * s.val; rw [(idx0_facts t).2.2.2.2.2.2.2.2.2.2.2.2.2.2.1]; omega
  | ⟨1, _⟩ => show q.val = win0_7.index t (1 : Fin 2) * 128 + 1 * q.val; rw [(idx0_facts t).2.2.2.2.2.2.2.2.2.2.2.2.2.2.2.1]; omega

theorem flushed0_7_eq (t : Fin cfg0.N) (hf : (cfg0.win 7).flush t = true) :
    (dat0 V c).flushed 7 t = ((cfg0.win 7).blk t).view.read (Elt Ideal) (G7 V c) := by
  have h4 : t.val % 5 = 4 := (flush0_7 t).mp hf
  show (cfg0.win 7).cut (grid0.coords t) ((dat0 V c).after 7 t) = _
  rw [after0_7, out7_flush V c t h4]
  refine blk7_read (G7 V c) t _ fun s q => ?_
  refine (Cert.Math.Pay.pay2_at _ s q).trans ?_
  show a0 V c t.val t.isLt q = a0tot V c ((t.val / 5 * 8 + s.val) / 8) q
  have e1 : (t.val / 5 * 8 + s.val) / 8 = t.val / 5 := by have := s.isLt; omega
  have e2 : 5 * (t.val / 5) + 4 = t.val := by omega
  rw [e1]; unfold a0tot
  rw [dif_pos (by rw [e2]; exact t.isLt)]
  exact a0_congr V c _ _ e2.symm _ _ q

theorem mem_blk7 (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v26_1).slice (win0_7.rect t)).set ↔ _
  rw [View.set_slice_whole, Rect.mem_set_unit]
  exact Iff.rfl

/-- Row 8p of statistics array 0 after region 0 is core p's accumulator after its last point. -/
theorem arr7_at (p : ℕ) (hp : 5 * p + 4 < cfg0.N) (hr : 8 * p < 16) (q : Fin 128) :
    (dat0 V c).arrAt 7 cfg0.N (ix2 ⟨8 * p, hr⟩ q) = a0 V c (5 * p + 4) hp q := by
  have hf : (cfg0.win 7).flush ⟨5 * p + 4, hp⟩ = true := (flush0_7 _).mpr (by show (5 * p + 4) % 5 = 4; omega)
  have hm : (ix2 ⟨8 * p, hr⟩ q : S16x128.Idx) ∈ ((cfg0.win 7).blk ⟨5 * p + 4, hp⟩).view.set := by
    rw [mem_blk7]
    intro a
    match a with
    | ⟨0, _⟩ =>
      show win0_7.index _ (0 : Fin 2) * 8 ≤ 8 * p ∧ 8 * p < win0_7.index _ (0 : Fin 2) * 8 + 8
      rw [(idx0_facts _).2.2.2.2.2.2.2.2.2.2.2.2.2.2.1]; show (5 * p + 4) / 5 * 8 ≤ 8 * p ∧ 8 * p < (5 * p + 4) / 5 * 8 + 8; omega
    | ⟨1, _⟩ =>
      show win0_7.index _ (1 : Fin 2) * 128 ≤ q.val ∧ q.val < win0_7.index _ (1 : Fin 2) * 128 + 128
      rw [(idx0_facts _).2.2.2.2.2.2.2.2.2.2.2.2.2.2.2.1]; have := q.isLt; omega
  rw [(dat0 V c).arrAt_apply_of_mem 7 (G7 V c) (fun t hf => flushed0_7_eq V c t hf) cfg0.N ⟨5 * p + 4, hp⟩ _ hp hf hm]
  show a0tot V c (8 * p / 8) q = _
  rw [Nat.mul_div_cancel_left p (by decide : 0 < 8)]
  unfold a0tot; rw [dif_pos hp]

/-- The two cores' accumulators together are the sum over all fifty thousand rows. -/
theorem sum_all0 (q : Fin 128) :
    (0 + ∑ s ∈ Finset.range 5, M0 V c q (5 * 0 + s)) + (0 + ∑ s ∈ Finset.range 5, M0 V c q (5 * 1 + s))
      = ∑ r : Fin 50000, H0 V c r q := by
  have h1 : (∑ r : Fin 50000, H0 V c r q) = ∑ j : Fin (2 * 5 * 5000), hn0 V c q j.val :=
    Finset.sum_congr rfl fun r _ => (hn0_of_lt V c q r.val r.isLt).symm
  rw [h1, Cert.SumSplit.sum_split 2 5 5000 (hn0 V c q), Fin.sum_univ_two]
  simp only [zero_add, Finset.sum_range, M0, Fin.val_zero, Fin.val_one, Nat.mul_zero, Nat.zero_mul, Nat.mul_one, Nat.one_mul, Nat.zero_add]

/-! ## Accumulator 1 -/

/-- Accumulator 1 after the body at position n, channel by channel. -/
def a1 (n : ℕ) (h : n < cfg0.N) : Fin 128 → EReal := fun q => (outsAt0 V c n h).2.2.2.2 (ix2 (0 : Fin 1) q)

theorem a1_congr (n n' : ℕ) (e : n = n') (h : n < cfg0.N) (h' : n' < cfg0.N) (q : Fin 128) : a1 V c n h q = a1 V c n' h' q := by
  subst e; rfl

theorem a1_reset (n : ℕ) (h : n < cfg0.N) (h0 : n % 5 = 0) : a1 V c n h = fun q => 0 + M1 V c q n := by
  funext q
  show (outsAt0 V c n h).2.2.2.2 (ix2 (0 : Fin 1) q) = _
  rw [show (outsAt0 V c n h).2.2.2.2 = _ from sc1_reset V c ⟨n, h⟩ h0]
  refine (Cert.Math.Pay.pay1_at _ _ (0 : Fin 1) q).trans ?_
  rw [Cert.Math.Pay.pay5_at]
  exact congrArg (0 + ·) (colsum1 V c ⟨n, h⟩ q)

theorem a1_step (n : ℕ) (h : n + 1 < cfg0.N) (h0 : ¬(n + 1) % 5 = 0) :
    a1 V c (n + 1) h = fun q => a1 V c n (Nat.lt_of_succ_lt h) q + M1 V c q (n + 1) := by
  funext q
  show (outsAt0 V c (n + 1) h).2.2.2.2 (ix2 (0 : Fin 1) q) = (outsAt0 V c n (Nat.lt_of_succ_lt h)).2.2.2.2 (ix2 (0 : Fin 1) q) + _
  rw [show (outsAt0 V c (n + 1) h).2.2.2.2 = _ from sc1_step V c ⟨n + 1, h⟩ h0]
  refine (Cert.Math.Pay.pay1_at _ _ (0 : Fin 1) q).trans ?_
  exact congrArg (_ + ·) (colsum1 V c ⟨n + 1, h⟩ q)

/-- After the last point of a run of five (positions 5p … 5p + 4) the accumulator holds the run's five block sums. -/
theorem tot1 (p : ℕ) (hp : 5 * p + 4 < cfg0.N) (q : Fin 128) :
    a1 V c (5 * p + 4) hp q = 0 + ∑ s ∈ Finset.range 5, M1 V c q (5 * p + s) :=
  (congrFun (Pipeline.eq_accAt (a1 V c) 5 (fun n _ q => 0 + M1 V c q n) (fun n _ acc q => acc q + M1 V c q n)
      (fun n h h0 => a1_reset V c n h h0) (fun n h h0 => a1_step V c n h h0) p 4 (by decide) hp) q).trans
    (Pipeline.accAt_add_apply (fun n _ q => 0 + M1 V c q n) (fun n _ acc q => acc q + M1 V c q n) (fun _ => 0) (fun n q => M1 V c q n)
      (5 * p) 4 (fun _ _ => rfl) (fun _ _ _ _ _ _ => rfl) 4 le_rfl hp q)

/-- What the statistics array 1 holds: in the rows of core p's block, core p's accumulator after its last point. -/
def a1tot (p : ℕ) (q : Fin 128) : EReal := if h : 5 * p + 4 < cfg0.N then a1 V c (5 * p + 4) h q else 0
def G8 : S16x128.Idx → EReal := fun i => a1tot V c ((i 0).val / 8) (i 1)

theorem blk8_read (G : S16x128.Idx → EReal) (t : Fin cfg0.N) (X : Vec Ideal S8x128 .f32)
    (h : ∀ (s : Fin 8) (q : Fin 128), X (ix2 s q) = G (ix2 ⟨t.val / 5 * 8 + s.val, srow_lt t s⟩ q)) :
    X = ((cfg0.win 8).blk t).view.read (Elt Ideal) G := by
  funext j
  obtain ⟨s, q, rfl⟩ : ∃ (s : Fin 8) (q : Fin 128), j = ix2 s q := ⟨j 0, j 1, eq_ix2 j⟩
  rw [h]
  show G _ = G (((cfg0.win 8).blk t).view.emb (ix2 s q))
  refine congrArg G ?_
  funext a; apply Fin.ext
  match a with
  | ⟨0, _⟩ => show t.val / 5 * 8 + s.val = win0_8.index t (0 : Fin 2) * 8 + 1 * s.val; rw [(idx0_facts t).2.2.2.2.2.2.2.2.2.2.2.2.2.2.2.2.1]; omega
  | ⟨1, _⟩ => show q.val = win0_8.index t (1 : Fin 2) * 128 + 1 * q.val; rw [(idx0_facts t).2.2.2.2.2.2.2.2.2.2.2.2.2.2.2.2.2]; omega

theorem flushed0_8_eq (t : Fin cfg0.N) (hf : (cfg0.win 8).flush t = true) :
    (dat0 V c).flushed 8 t = ((cfg0.win 8).blk t).view.read (Elt Ideal) (G8 V c) := by
  have h4 : t.val % 5 = 4 := (flush0_8 t).mp hf
  show (cfg0.win 8).cut (grid0.coords t) ((dat0 V c).after 8 t) = _
  rw [after0_8, out8_flush V c t h4]
  refine blk8_read (G8 V c) t _ fun s q => ?_
  refine (Cert.Math.Pay.pay3_at _ s q).trans ?_
  show a1 V c t.val t.isLt q = a1tot V c ((t.val / 5 * 8 + s.val) / 8) q
  have e1 : (t.val / 5 * 8 + s.val) / 8 = t.val / 5 := by have := s.isLt; omega
  have e2 : 5 * (t.val / 5) + 4 = t.val := by omega
  rw [e1]; unfold a1tot
  rw [dif_pos (by rw [e2]; exact t.isLt)]
  exact a1_congr V c _ _ e2.symm _ _ q

theorem mem_blk8 (t : Fin cfg0.N) (i : S16x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v26_2).slice (win0_8.rect t)).set ↔ _
  rw [View.set_slice_whole, Rect.mem_set_unit]
  exact Iff.rfl

/-- Row 8p of statistics array 1 after region 0 is core p's accumulator after its last point. -/
theorem arr8_at (p : ℕ) (hp : 5 * p + 4 < cfg0.N) (hr : 8 * p < 16) (q : Fin 128) :
    (dat0 V c).arrAt 8 cfg0.N (ix2 ⟨8 * p, hr⟩ q) = a1 V c (5 * p + 4) hp q := by
  have hf : (cfg0.win 8).flush ⟨5 * p + 4, hp⟩ = true := (flush0_8 _).mpr (by show (5 * p + 4) % 5 = 4; omega)
  have hm : (ix2 ⟨8 * p, hr⟩ q : S16x128.Idx) ∈ ((cfg0.win 8).blk ⟨5 * p + 4, hp⟩).view.set := by
    rw [mem_blk8]
    intro a
    match a with
    | ⟨0, _⟩ =>
      show win0_8.index _ (0 : Fin 2) * 8 ≤ 8 * p ∧ 8 * p < win0_8.index _ (0 : Fin 2) * 8 + 8
      rw [(idx0_facts _).2.2.2.2.2.2.2.2.2.2.2.2.2.2.2.2.1]; show (5 * p + 4) / 5 * 8 ≤ 8 * p ∧ 8 * p < (5 * p + 4) / 5 * 8 + 8; omega
    | ⟨1, _⟩ =>
      show win0_8.index _ (1 : Fin 2) * 128 ≤ q.val ∧ q.val < win0_8.index _ (1 : Fin 2) * 128 + 128
      rw [(idx0_facts _).2.2.2.2.2.2.2.2.2.2.2.2.2.2.2.2.2]; have := q.isLt; omega
  rw [(dat0 V c).arrAt_apply_of_mem 8 (G8 V c) (fun t hf => flushed0_8_eq V c t hf) cfg0.N ⟨5 * p + 4, hp⟩ _ hp hf hm]
  show a1tot V c (8 * p / 8) q = _
  rw [Nat.mul_div_cancel_left p (by decide : 0 < 8)]
  unfold a1tot; rw [dif_pos hp]

/-- The two cores' accumulators together are the sum over all fifty thousand rows. -/
theorem sum_all1 (q : Fin 128) :
    (0 + ∑ s ∈ Finset.range 5, M1 V c q (5 * 0 + s)) + (0 + ∑ s ∈ Finset.range 5, M1 V c q (5 * 1 + s))
      = ∑ r : Fin 50000, H0 V c r q * H0 V c r q := by
  have h1 : (∑ r : Fin 50000, H0 V c r q * H0 V c r q) = ∑ j : Fin (2 * 5 * 5000), hn1 V c q j.val :=
    Finset.sum_congr rfl fun r _ => (hn1_of_lt V c q r.val r.isLt).symm
  rw [h1, Cert.SumSplit.sum_split 2 5 5000 (hn1 V c q), Fin.sum_univ_two]
  simp only [zero_add, Finset.sum_range, M1, Fin.val_zero, Fin.val_one, Nat.mul_zero, Nat.zero_mul, Nat.mul_one, Nat.one_mul, Nat.zero_add]

end

end Cert.KernelIdeal.Hand

end
-- ==== Proof.MathHost0.lean ====
/-
  The first host stretch of the kernel program, read off for any contents of the buffers it starts from.

  Its thirty-three operations form, from the node features x (argument 0) and the edge list e (argument 1), the
  neighbour sums `agg x e` (gather the source rows, add them at the destination rows into zeros) and the clamped
  degrees `degc e` (add ones at the destination rows into zeros, then the maximum with one); then the reciprocal
  1 / degc as a column, the transposes of the two weight tables and the bias as a row. Each is stated as the
  operations' term of the starting contents, and then read at an index:

      reciprocal column at (r, 0)  =  1 / degc e r ,     transposed table at (k, q)  =  table at (q, k) ,
      bias row at (0, q)  =  bias at q .
-/
import proofs.«135504_j88974542504019_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Math.Host

open Cert.KernelIdeal Cert.KernelIdeal.Gen Idealize.ShloMosaic Idealize.ShloMosaic.TcCoe Idealize.SL.Sem
open Idealize.ShloMosaic.ValueIdx Idealize.ShloMosaic.StableHlo

/-- The source node of each edge: row 0 of the edge list, flattened. -/
def srcRow (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The destination node of each edge: row 1 of the edge list, flattened. -/
def dstRow (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The neighbour sums: the rows of x at the (wrapped) source nodes, added at the destination nodes into zeros. -/
def agg (x : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstRow e))
    (Host.gather gather_S50000x128_S800000x1_S800000x128_1_0_n_n_0_1_1128 x
      (broadcastInDim S800000x1 ![0] bcast_S800000_S800000x1_0
        (select (cmpi .slt (srcRow e) (broadcastInDim S800000 ![] bcast_S_S800000 (constantI S_ 32 0#32)))
          (addi (srcRow e) (broadcastInDim S800000 ![] bcast_S_S800000 (constantI S_ 32 50000#32))) (srcRow e))))

/-- The degrees: ones added at the destination nodes into zeros. -/
def deg (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstRow e))
    (broadcastInDim S800000 ![] bcast_S_S800000 (constant (F := Ideal) S_ .f32 0x3F800000#32))

/-- The clamped degrees: the maximum of the degree and one. -/
def degc (e : (⟨S2x800000, .i32⟩ : BufTy).Contents (Elt Ideal)) : (⟨S50000, .f32⟩ : BufTy).Contents (Elt Ideal) :=
  maximumf (deg e) (broadcastInDim S50000 ![] bcast_S_S50000 (constant (F := Ideal) S_ .f32 0x3F800000#32))

variable (W : Valuation τ sig (Elt Ideal))

set_option maxRecDepth 8192 in
set_option maxHeartbeats 4000000 in
/-- The neighbour sums the stretch leaves. -/
theorem after0_v13 :
    (StableHlo.after hostOps0 W (Proc.devRef .tc main_v13) : S50000x128.Idx → EReal)
      = agg (W (Proc.devRef .tc main_arg0)) (W (Proc.devRef .tc main_arg1)) := by
  after_results_simp
  rfl

set_option maxRecDepth 8192 in
set_option maxHeartbeats 4000000 in
/-- The clamped degrees the stretch leaves. -/
theorem after0_v19 :
    (StableHlo.after hostOps0 W (Proc.devRef .tc main_v19) : S50000.Idx → EReal)
      = degc (W (Proc.devRef .tc main_arg1)) := by
  after_results_simp
  rfl

set_option maxRecDepth 8192 in
set_option maxHeartbeats 4000000 in
/-- The reciprocal of the clamped degrees, as a column. -/
theorem after0_v22 :
    (StableHlo.after hostOps0 W (Proc.devRef .tc main_v22) : S50000x1.Idx → EReal)
      = shapeCast S50000x1
          (Host.divf (F := Ideal) (broadcastInDim S50000 ![] bcast_S_S50000 (constant (F := Ideal) S_ .f32 0x3F800000#32))
            (degc (W (Proc.devRef .tc main_arg1)))) shapeCasts_S50000_S50000x1 := by
  after_results_simp
  rfl

set_option maxRecDepth 8192 in
set_option maxHeartbeats 4000000 in
/-- The first weight table, transposed. -/
theorem after0_v23 :
    (StableHlo.after hostOps0 W (Proc.devRef .tc main_v23) : S128x128.Idx → EReal)
      = transpose S128x128 [1, 0] (W (Proc.devRef .tc main_arg2)) transposes_S128x128_S128x128_1_0 := by
  after_results_simp

set_option maxRecDepth 8192 in
set_option maxHeartbeats 4000000 in
/-- The second weight table, transposed. -/
theorem after0_v24 :
    (StableHlo.after hostOps0 W (Proc.devRef .tc main_v24) : S128x128.Idx → EReal)
      = transpose S128x128 [1, 0] (W (Proc.devRef .tc main_arg4)) transposes_S128x128_S128x128_1_0 := by
  after_results_simp

set_option maxRecDepth 8192 in
set_option maxHeartbeats 4000000 in
/-- The bias, as a row. -/
theorem after0_v25 :
    (StableHlo.after hostOps0 W (Proc.devRef .tc main_v25) : S1x128.Idx → EReal)
      = shapeCast S1x128 (W (Proc.devRef .tc main_arg3)) shapeCasts_S128_S1x128 := by
  after_results_simp
  rfl

/-- The reciprocal column at row r is one over the clamped degree of r. -/
theorem after0_v22_at (r : Fin 50000) (u : Fin 1) :
    (StableHlo.after hostOps0 W (Proc.devRef .tc main_v22) : S50000x1.Idx → EReal) (ix2 r u)
      = Ideal.div 1 (degc (W (Proc.devRef .tc main_arg1)) (ix1 r)) := by
  rw [after0_v22]
  refine (shapeCast_apply _ shapeCasts_S50000_S50000x1 (ix2 r u) (ix1 r) (by
    have hu : u.val = 0 := by omega
    rw [Shape.rowMajor_val_one, Shape.rowMajor_val_two]
    show r.val = r.val * 1 + u.val
    omega)).trans ?_
  rw [hostDivf_apply, broadcastInDim_scalar_apply]
  show Ideal.div (Ideal.ofBits .f32 0x3F800000#32) _ = _
  rw [Ideal.ofBits_one_f32]

/-- The transposed first table at (k, q) is the table at (q, k). -/
theorem after0_v23_at (k q : Fin 128) :
    (StableHlo.after hostOps0 W (Proc.devRef .tc main_v23) : S128x128.Idx → EReal) (ix2 k q)
      = (W (Proc.devRef .tc main_arg2) : S128x128.Idx → EReal) (ix2 q k) := by
  rw [after0_v23]
  exact transpose_ix2_apply _ transposes_S128x128_S128x128_1_0 k q

/-- The transposed second table at (k, q) is the table at (q, k). -/
theorem after0_v24_at (k q : Fin 128) :
    (StableHlo.after hostOps0 W (Proc.devRef .tc main_v24) : S128x128.Idx → EReal) (ix2 k q)
      = (W (Proc.devRef .tc main_arg4) : S128x128.Idx → EReal) (ix2 q k) := by
  rw [after0_v24]
  exact transpose_ix2_apply _ transposes_S128x128_S128x128_1_0 k q

/-- The bias row at (0, q) is the bias at q. -/
theorem after0_v25_at (u : Fin 1) (q : Fin 128) :
    (StableHlo.after hostOps0 W (Proc.devRef .tc main_v25) : S1x128.Idx → EReal) (ix2 u q)
      = (W (Proc.devRef .tc main_arg3) : S128.Idx → EReal) (ix1 q) := by
  rw [after0_v25]
  exact shapeCast_a_1a_apply _ shapeCasts_S128_S1x128 u q

end Cert.Math.Host

end
-- ==== Proof.MathHost1.lean ====
/-
  The second host stretch of the kernel program, read off for any contents of the buffers it starts from.

  The first kernel region leaves two [16,128] arrays of partial column sums, one row of partial sums at row 0 and one at
  row 8 (one per half of the grid). The stretch adds the two rows, divides by the number of nodes N, and forms

      μ q = (S1 (0,q) + S1 (8,q)) / N ,      v q = max ((S2 (0,q) + S2 (8,q)) / N − μ q · μ q, 0) ,

  as [1,128] rows, beside the scale γ and the shift β reshaped to rows.
-/
import proofs.«135504_j88974542504019_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Math.Host

open Cert.KernelIdeal Cert.KernelIdeal.Gen Idealize.ShloMosaic Idealize.ShloMosaic.TcCoe Idealize.SL.Sem
open Idealize.ShloMosaic.ValueIdx Idealize.ShloMosaic.StableHlo

/-- Rows 0 and 8 of a [16,128] array of partial sums, added. -/
def colSum (S : FVec Ideal S16x128 .f32) : FVec Ideal S128 .f32 :=
  addf (F := Ideal) (shapeCast S128 (extractStridedSlice S1x128 ![0, 0] S slices_S16x128_S1x128_0_0) shapeCasts_S1x128_S128)
    (shapeCast S128 (extractStridedSlice S1x128 ![8, 0] S slices_S16x128_S1x128_8_0) shapeCasts_S1x128_S128)

/-- The column means: the summed rows over the number of nodes. -/
def muVec (S1 : FVec Ideal S16x128 .f32) : FVec Ideal S128 .f32 :=
  Host.divf (F := Ideal) (colSum S1) (broadcastInDim S128 ![] bcast_S_S128 (constant (F := Ideal) S_ .f32 0x47435000#32))

/-- The column variances in the one-pass form, clamped at zero. -/
def varVec (S1 S2 : FVec Ideal S16x128 .f32) : FVec Ideal S128 .f32 :=
  maximumf (F := Ideal)
    (subf (F := Ideal) (Host.divf (F := Ideal) (colSum S2) (broadcastInDim S128 ![] bcast_S_S128 (constant (F := Ideal) S_ .f32 0x47435000#32)))
      (mulf (F := Ideal) (muVec S1) (muVec S1)))
    (broadcastInDim S128 ![] bcast_S_S128 (constant (F := Ideal) S_ .f32 0x00000000#32))

/-- The two partial sums of a column, added. -/
def rowPair (S : FVec Ideal S16x128 .f32) (q : Fin 128) : EReal := S (ix2 (0 : Fin 16) q) + S (ix2 (8 : Fin 16) q)

/-- The mean of a column from its partial sums. -/
def muOf (S1 : FVec Ideal S16x128 .f32) (q : Fin 128) : EReal := Ideal.div (rowPair S1 q) (Ideal.ofBits .f32 0x47435000#32)

/-- The clamped one-pass variance of a column from its partial sums and partial sums of squares. -/
def varOf (S1 S2 : FVec Ideal S16x128 .f32) (q : Fin 128) : EReal :=
  max (Ideal.div (rowPair S2 q) (Ideal.ofBits .f32 0x47435000#32) - muOf S1 q * muOf S1 q) 0

/-- The summed rows at a column. -/
theorem colSum_at (S : FVec Ideal S16x128 .f32) (q : Fin 128) :
    colSum S (ix1 q) = rowPair S q := by
  unfold rowPair
  show shapeCast S128 _ shapeCasts_S1x128_S128 (ix1 q) + shapeCast S128 _ shapeCasts_S1x128_S128 (ix1 q) = _
  rw [shapeCast_1a_a_apply, shapeCast_1a_a_apply]
  refine congrArg₂ (· + ·) ?_ ?_
  · exact extractStridedSlice_apply ![0, 0] S slices_S16x128_S1x128_0_0 (ix2 (0 : Fin 1) q) (ix2 (0 : Fin 16) q)
      (fun a => match a with
        | ⟨0, _⟩ => rfl
        | ⟨1, _⟩ => by show q.val = 0 + q.val; omega)
  · exact extractStridedSlice_apply ![8, 0] S slices_S16x128_S1x128_8_0 (ix2 (0 : Fin 1) q) (ix2 (8 : Fin 16) q)
      (fun a => match a with
        | ⟨0, _⟩ => rfl
        | ⟨1, _⟩ => by show q.val = 0 + q.val; omega)

/-- The column mean at a column. -/
theorem muVec_at (S1 : FVec Ideal S16x128 .f32) (q : Fin 128) :
    muVec S1 (ix1 q) = muOf S1 q := by
  unfold muOf
  unfold muVec
  rw [hostDivf_apply, broadcastInDim_scalar_apply, colSum_at]
  rfl

/-- The clamped one-pass variance at a column. -/
theorem varVec_at (S1 S2 : FVec Ideal S16x128 .f32) (q : Fin 128) :
    varVec S1 S2 (ix1 q) = varOf S1 S2 q := by
  unfold varVec varOf
  show max ((Host.divf (F := Ideal) (colSum S2) _ (ix1 q)) - muVec S1 (ix1 q) * muVec S1 (ix1 q))
    (broadcastInDim S128 ![] bcast_S_S128 (constant (F := Ideal) S_ .f32 0x00000000#32) (ix1 q)) = _
  rw [hostDivf_apply, broadcastInDim_scalar_apply, broadcastInDim_scalar_apply, colSum_at, muVec_at]
  show max _ (Ideal.ofBits .f32 0x00000000#32) = _
  rw [Ideal.ofBits_zero_f32]
  rfl

variable (W : Valuation τ sig (Elt Ideal))

set_option maxRecDepth 8192 in
set_option maxHeartbeats 4000000 in
/-- The mean row the stretch leaves. -/
theorem after1_v45 :
    (StableHlo.after hostOps1 W (Proc.devRef .tc main_v45) : S1x128.Idx → EReal)
      = shapeCast S1x128 (muVec (W (Proc.devRef .tc main_v26_1))) shapeCasts_S128_S1x128 := by
  after_results_simp
  rfl

set_option maxRecDepth 8192 in
set_option maxHeartbeats 4000000 in
/-- The variance row the stretch leaves. -/
theorem after1_v46 :
    (StableHlo.after hostOps1 W (Proc.devRef .tc main_v46) : S1x128.Idx → EReal)
      = shapeCast S1x128 (varVec (W (Proc.devRef .tc main_v26_1)) (W (Proc.devRef .tc main_v26_2))) shapeCasts_S128_S1x128 := by
  after_results_simp
  rfl

set_option maxRecDepth 8192 in
set_option maxHeartbeats 4000000 in
/-- The scale, as a row. -/
theorem after1_v47 :
    (StableHlo.after hostOps1 W (Proc.devRef .tc main_v47) : S1x128.Idx → EReal)
      = shapeCast S1x128 (W (Proc.devRef .tc main_arg5)) shapeCasts_S128_S1x128 := by
  after_results_simp
  rfl

set_option maxRecDepth 8192 in
set_option maxHeartbeats 4000000 in
/-- The shift, as a row. -/
theorem after1_v48 :
    (StableHlo.after hostOps1 W (Proc.devRef .tc main_v48) : S1x128.Idx → EReal)
      = shapeCast S1x128 (W (Proc.devRef .tc main_arg6)) shapeCasts_S128_S1x128 := by
  after_results_simp
  rfl

/-- The mean row at column q: the two partial sums over N. -/
theorem after1_v45_at (u : Fin 1) (q : Fin 128) :
    (StableHlo.after hostOps1 W (Proc.devRef .tc main_v45) : S1x128.Idx → EReal) (ix2 u q)
      = muOf (W (Proc.devRef .tc main_v26_1)) q := by
  rw [after1_v45]
  exact (shapeCast_a_1a_apply _ shapeCasts_S128_S1x128 u q).trans (muVec_at _ q)

/-- The variance row at column q: the clamped one-pass form of the partial sums. -/
theorem after1_v46_at (u : Fin 1) (q : Fin 128) :
    (StableHlo.after hostOps1 W (Proc.devRef .tc main_v46) : S1x128.Idx → EReal) (ix2 u q)
      = varOf (W (Proc.devRef .tc main_v26_1)) (W (Proc.devRef .tc main_v26_2)) q := by
  rw [after1_v46]
  exact (shapeCast_a_1a_apply _ shapeCasts_S128_S1x128 u q).trans (varVec_at _ _ q)

/-- The scale row at column q. -/
theorem after1_v47_at (u : Fin 1) (q : Fin 128) :
    (StableHlo.after hostOps1 W (Proc.devRef .tc main_v47) : S1x128.Idx → EReal) (ix2 u q)
      = (W (Proc.devRef .tc main_arg5) : S128.Idx → EReal) (ix1 q) := by
  rw [after1_v47]
  exact shapeCast_a_1a_apply _ shapeCasts_S128_S1x128 u q

/-- The shift row at column q. -/
theorem after1_v48_at (u : Fin 1) (q : Fin 128) :
    (StableHlo.after hostOps1 W (Proc.devRef .tc main_v48) : S1x128.Idx → EReal) (ix2 u q)
      = (W (Proc.devRef .tc main_arg6) : S128.Idx → EReal) (ix1 q) := by
  rw [after1_v48]
  exact shapeCast_a_1a_apply _ shapeCasts_S128_S1x128 u q

end Cert.Math.Host

end
-- ==== Proof.Spec.lean ====
/-
  The layer as one function on the extended reals, index by index.

  A graph layer with mean aggregation followed by batch normalisation over the node axis and a rectifier:
  for node r and output channel q, with a the neighbour sums, d the reciprocal of the clamped degree,
  x the node features, Wl, Wr the two weight tables (output-major) and b the bias,

      h r q = (Σ_k (a r k · d r) · Wl q k + Σ_k x r k · Wr q k) + b q .

  The normalisation uses the mean over all nodes, μ q = (Σ_r h r q) / N, and the variance in its one-pass form
  clamped at zero, v q = max ((Σ_r h r q · h r q) / N − μ q · μ q, 0); the result is
  max (((h r q − μ q) · rsqrt (v q + ε)) · γ q + β q, 0).

  The two-pass form of the variance, (Σ_r (h r q − μ q)²) / N, is stated beside it: on real entries, with N the
  number of nodes, the two agree (proved elsewhere).
-/
import Idealize.ShloMosaic.PureOps.Ideal
import Mathlib.Algebra.BigOperators.Fin

noncomputable section

namespace Cert.Spec

open Idealize.ShloMosaic

variable {n c kk : ℕ}

/-- The pre-normalisation activations: aggregated neighbours through the first table, the node's own features
    through the second, then the bias. -/
def hidden (a : Fin n → Fin kk → EReal) (d : Fin n → EReal) (x : Fin n → Fin kk → EReal)
    (Wl : Fin c → Fin kk → EReal) (b : Fin c → EReal) (Wr : Fin c → Fin kk → EReal) (r : Fin n) (q : Fin c) : EReal :=
  ((∑ k, (a r k * d r) * Wl q k) + (∑ k, x r k * Wr q k)) + b q

/-- The mean of channel q over the nodes, the divisor given as an extended real. -/
def mean (N : EReal) (H : Fin n → Fin c → EReal) (q : Fin c) : EReal := Ideal.div (∑ r, H r q) N

/-- One-pass variance clamped at zero: E[h²] − E[h]², then max with 0. -/
def varOnePass (N : EReal) (H : Fin n → Fin c → EReal) (q : Fin c) : EReal :=
  max (Ideal.div (∑ r, H r q * H r q) N - mean N H q * mean N H q) 0

/-- Two-pass variance: E[(h − E[h])²]. -/
def varTwoPass (N : EReal) (H : Fin n → Fin c → EReal) (q : Fin c) : EReal :=
  Ideal.div (∑ r, (H r q - mean N H q) * (H r q - mean N H q)) N

/-- Normalise with a given variance, scale, shift, rectify. -/
def normRelu (N ε : EReal) (v : Fin c → EReal) (H : Fin n → Fin c → EReal) (γ β : Fin c → EReal) (r : Fin n) (q : Fin c) : EReal :=
  max ((((H r q - mean N H q) * Ideal.rsqrt (v q + ε)) * γ q) + β q) 0

/-- The kernel's spelling: the one-pass variance. -/
def outOnePass (N ε : EReal) (H : Fin n → Fin c → EReal) (γ β : Fin c → EReal) (r : Fin n) (q : Fin c) : EReal :=
  normRelu N ε (varOnePass N H) H γ β r q

/-- The reference's spelling: the two-pass variance. -/
def outTwoPass (N ε : EReal) (H : Fin n → Fin c → EReal) (γ β : Fin c → EReal) (r : Fin n) (q : Fin c) : EReal :=
  normRelu N ε (varTwoPass N H) H γ β r q

end Cert.Spec

end
-- ==== Proof.KI.ValFinal.lean ====
/-
  The result array of the kernel program as the specification's one-pass form of the argument arrays.

  The output array after the second region is, entry by entry, the normalisation of the h array by the mean and variance
  rows the host formed from the two statistics arrays; the h array is the layer of the arrays the first region was
  entered with, which the first host stretch made from the arguments (neighbour sums, reciprocal clamped degrees, the two
  transposed tables, the bias as a row); rows 0 and 8 of a statistics array are the two cores' totals, which together are
  the sum over all rows. So the mean row is the specification's mean and the variance row its clamped one-pass variance.
-/
import proofs.«135504_j88974542504019_2_alg».proof.Proof.KI.Main
import proofs.«135504_j88974542504019_2_alg».proof.Proof.KI.ValOut
import proofs.«135504_j88974542504019_2_alg».proof.Proof.KI.ValStats
import proofs.«135504_j88974542504019_2_alg».proof.Proof.MathHost0
import proofs.«135504_j88974542504019_2_alg».proof.Proof.MathHost1
import proofs.«135504_j88974542504019_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Math.Host
variable {F : FTy → Type} [FloatOps F]

local notation "𝕄" => MT nD τ sig Unit (Elt F) ℕ (UR sig nD τ) ℕ

section
variable (m : (ℓ : Loc nD τ sig) → Buf (Elt Ideal) ℓ) (ρ : Dev nD → PrngReg) (c : Dev nD)

/-! ## The arguments are never written -/

theorem W1_arg0 : W1 m ρ c (Proc.devRef .tc main_arg0) = m ((c : Thread nD τ).loc main_arg0) :=
  StableHlo.after_of_writes_sub hostOps0 _ hostOps0_writes (r := main_arg0) (by decide)
theorem W1_arg1 : W1 m ρ c (Proc.devRef .tc main_arg1) = m ((c : Thread nD τ).loc main_arg1) :=
  StableHlo.after_of_writes_sub hostOps0 _ hostOps0_writes (r := main_arg1) (by decide)
theorem W1_arg2 : W1 m ρ c (Proc.devRef .tc main_arg2) = m ((c : Thread nD τ).loc main_arg2) :=
  StableHlo.after_of_writes_sub hostOps0 _ hostOps0_writes (r := main_arg2) (by decide)
theorem W1_arg3 : W1 m ρ c (Proc.devRef .tc main_arg3) = m ((c : Thread nD τ).loc main_arg3) :=
  StableHlo.after_of_writes_sub hostOps0 _ hostOps0_writes (r := main_arg3) (by decide)
theorem W1_arg4 : W1 m ρ c (Proc.devRef .tc main_arg4) = m ((c : Thread nD τ).loc main_arg4) :=
  StableHlo.after_of_writes_sub hostOps0 _ hostOps0_writes (r := main_arg4) (by decide)
theorem W1_arg5 : W1 m ρ c (Proc.devRef .tc main_arg5) = m ((c : Thread nD τ).loc main_arg5) :=
  StableHlo.after_of_writes_sub hostOps0 _ hostOps0_writes (r := main_arg5) (by decide)
theorem W1_arg6 : W1 m ρ c (Proc.devRef .tc main_arg6) = m ((c : Thread nD τ).loc main_arg6) :=
  StableHlo.after_of_writes_sub hostOps0 _ hostOps0_writes (r := main_arg6) (by decide)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## The layer of the arguments -/

theorem Hrc_eq_hidden (a x : S50000x128.Idx → EReal) (d : S50000x1.Idx → EReal) (wl wr : S128x128.Idx → EReal) (b : S1x128.Idx → EReal)
    (r : Fin 50000) (q : Fin 128) :
    Hrc a x d wl wr b r q = Cert.Spec.hidden (fun r k => a (ix2 r k)) (fun r => d (ix2 r (0 : Fin 1))) (fun r k => x (ix2 r k))
      (fun q k => wl (ix2 k q)) (fun q => b (ix2 (0 : Fin 1) q)) (fun q k => wr (ix2 k q)) r q := rfl

/-- The specification's activations of the argument arrays. -/
def Hspec : Fin 50000 → Fin 128 → EReal :=
  Cert.Spec.hidden (fun r k => agg (m ((c : Thread nD τ).loc main_arg0)) (m ((c : Thread nD τ).loc main_arg1)) (ix2 r k)) (fun r => Ideal.div 1 (degc (m ((c : Thread nD τ).loc main_arg1)) (ix1 r)))
    (fun r k => (m ((c : Thread nD τ).loc main_arg0) : S50000x128.Idx → EReal) (ix2 r k)) (fun q k => (m ((c : Thread nD τ).loc main_arg2) : S128x128.Idx → EReal) (ix2 q k))
    (fun q => (m ((c : Thread nD τ).loc main_arg3) : S128.Idx → EReal) (ix1 q)) (fun q k => (m ((c : Thread nD τ).loc main_arg4) : S128x128.Idx → EReal) (ix2 q k))

theorem H0_eq : H0 (V1 m ρ) c = Hspec m c := by
  funext r q
  refine (Hrc_eq_hidden _ _ _ _ _ _ r q).trans ?_
  have e1 : (fun (r : Fin 50000) (k : Fin 128) => (V1 m ρ c main_v13 : S50000x128.Idx → EReal) (ix2 r k))
      = fun r k => agg (m ((c : Thread nD τ).loc main_arg0)) (m ((c : Thread nD τ).loc main_arg1)) (ix2 r k) := by
    rw [show (V1 m ρ c main_v13 : S50000x128.Idx → EReal) = agg (m ((c : Thread nD τ).loc main_arg0)) (m ((c : Thread nD τ).loc main_arg1)) from after0_v13 (W0 m ρ c)]
  have e2 : (fun (r : Fin 50000) => (V1 m ρ c main_v22 : S50000x1.Idx → EReal) (ix2 r (0 : Fin 1)))
      = fun r => Ideal.div 1 (degc (m ((c : Thread nD τ).loc main_arg1)) (ix1 r)) := funext fun r => after0_v22_at (W0 m ρ c) r 0
  have e3 : (fun (r : Fin 50000) (k : Fin 128) => (V1 m ρ c main_arg0 : S50000x128.Idx → EReal) (ix2 r k))
      = fun r k => (m ((c : Thread nD τ).loc main_arg0) : S50000x128.Idx → EReal) (ix2 r k) := by
    rw [show (V1 m ρ c main_arg0 : S50000x128.Idx → EReal) = m ((c : Thread nD τ).loc main_arg0) from W1_arg0 m ρ c]
  have e4 : (fun (q k : Fin 128) => (V1 m ρ c main_v23 : S128x128.Idx → EReal) (ix2 k q))
      = fun q k => (m ((c : Thread nD τ).loc main_arg2) : S128x128.Idx → EReal) (ix2 q k) := funext fun q => funext fun k => after0_v23_at (W0 m ρ c) k q
  have e5 : (fun (q : Fin 128) => (V1 m ρ c main_v25 : S1x128.Idx → EReal) (ix2 (0 : Fin 1) q))
      = fun q => (m ((c : Thread nD τ).loc main_arg3) : S128.Idx → EReal) (ix1 q) := funext fun q => after0_v25_at (W0 m ρ c) 0 q
  have e6 : (fun (q k : Fin 128) => (V1 m ρ c main_v24 : S128x128.Idx → EReal) (ix2 k q))
      = fun q k => (m ((c : Thread nD τ).loc main_arg4) : S128x128.Idx → EReal) (ix2 q k) := funext fun q => funext fun k => after0_v24_at (W0 m ρ c) k q
  rw [e1, e2, e3, e4, e5, e6]
  rfl

/-! ## The h array, the mean and variance rows, the scale and shift rows, as region 1 finds them -/

theorem V3_v26_0 : (V3 m ρ c main_v26_0 : S50000x128.Idx → EReal)
    = Harr (V1 m ρ c main_v13) (V1 m ρ c main_arg0) (V1 m ρ c main_v22) (V1 m ρ c main_v23) (V1 m ρ c main_v24) (V1 m ρ c main_v25) :=
  calc (V3 m ρ c main_v26_0 : S50000x128.Idx → EReal)
    _ = W2 m ρ c (Proc.devRef .tc main_v26_0) := StableHlo.after_of_writes_sub hostOps1 _ hostOps1_writes (r := main_v26_0) (by decide)
    _ = (dat0 (V1 m ρ) c).arrAt 6 cfg0.N := W2_arr m ρ c 6
    _ = _ := final0_6 (V1 m ρ) c

theorem hp0 : 5 * 0 + 4 < cfg0.N := by have hN := N_0; show 5 * 0 + 4 < grid0.N; omega
theorem hp1 : 5 * 1 + 4 < cfg0.N := by have hN := N_0; show 5 * 1 + 4 < grid0.N; omega

theorem rowPair1_eq (q : Fin 128) :
    rowPair (W2 m ρ c (Proc.devRef .tc main_v26_1)) q = ∑ r : Fin 50000, H0 (V1 m ρ) c r q := by
  unfold rowPair
  have e0 : (W2 m ρ c (Proc.devRef .tc main_v26_1) : S16x128.Idx → EReal) (ix2 (0 : Fin 16) q)
      = 0 + ∑ s ∈ Finset.range 5, M0 (V1 m ρ) c q (5 * 0 + s) := by
    rw [show (W2 m ρ c (Proc.devRef .tc main_v26_1) : S16x128.Idx → EReal) = (dat0 (V1 m ρ) c).arrAt 7 cfg0.N from W2_arr m ρ c 7]
    exact (arr7_at (V1 m ρ) c 0 hp0 (by decide) q).trans (tot0 (V1 m ρ) c 0 hp0 q)
  have e8 : (W2 m ρ c (Proc.devRef .tc main_v26_1) : S16x128.Idx → EReal) (ix2 (8 : Fin 16) q)
      = 0 + ∑ s ∈ Finset.range 5, M0 (V1 m ρ) c q (5 * 1 + s) := by
    rw [show (W2 m ρ c (Proc.devRef .tc main_v26_1) : S16x128.Idx → EReal) = (dat0 (V1 m ρ) c).arrAt 7 cfg0.N from W2_arr m ρ c 7]
    exact (arr7_at (V1 m ρ) c 1 hp1 (by decide) q).trans (tot0 (V1 m ρ) c 1 hp1 q)
  rw [e0, e8]
  exact sum_all0 (V1 m ρ) c q

theorem rowPair2_eq (q : Fin 128) :
    rowPair (W2 m ρ c (Proc.devRef .tc main_v26_2)) q = ∑ r : Fin 50000, H0 (V1 m ρ) c r q * H0 (V1 m ρ) c r q := by
  unfold rowPair
  have e0 : (W2 m ρ c (Proc.devRef .tc main_v26_2) : S16x128.Idx → EReal) (ix2 (0 : Fin 16) q)
      = 0 + ∑ s ∈ Finset.range 5, M1 (V1 m ρ) c q (5 * 0 + s) := by
    rw [show (W2 m ρ c (Proc.devRef .tc main_v26_2) : S16x128.Idx → EReal) = (dat0 (V1 m ρ) c).arrAt 8 cfg0.N from W2_arr m ρ c 8]
    exact (arr8_at (V1 m ρ) c 0 hp0 (by decide) q).trans (tot1 (V1 m ρ) c 0 hp0 q)
  have e8 : (W2 m ρ c (Proc.devRef .tc main_v26_2) : S16x128.Idx → EReal) (ix2 (8 : Fin 16) q)
      = 0 + ∑ s ∈ Finset.range 5, M1 (V1 m ρ) c q (5 * 1 + s) := by
    rw [show (W2 m ρ c (Proc.devRef .tc main_v26_2) : S16x128.Idx → EReal) = (dat0 (V1 m ρ) c).arrAt 8 cfg0.N from W2_arr m ρ c 8]
    exact (arr8_at (V1 m ρ) c 1 hp1 (by decide) q).trans (tot1 (V1 m ρ) c 1 hp1 q)
  rw [e0, e8]
  exact sum_all1 (V1 m ρ) c q

theorem mean_eq (q : Fin 128) :
    (V3 m ρ c main_v45 : S1x128.Idx → EReal) (ix2 (0 : Fin 1) q)
      = Cert.Spec.mean (Ideal.ofBits .f32 0x47435000#32) (H0 (V1 m ρ) c) q := by
  refine (after1_v45_at (W2 m ρ c) 0 q).trans ?_
  unfold muOf Cert.Spec.mean
  rw [rowPair1_eq]

theorem var_eq (q : Fin 128) :
    (V3 m ρ c main_v46 : S1x128.Idx → EReal) (ix2 (0 : Fin 1) q)
      = Cert.Spec.varOnePass (Ideal.ofBits .f32 0x47435000#32) (H0 (V1 m ρ) c) q := by
  refine (after1_v46_at (W2 m ρ c) 0 q).trans ?_
  unfold varOf muOf Cert.Spec.varOnePass Cert.Spec.mean
  rw [rowPair1_eq, rowPair2_eq]

theorem scale_eq (q : Fin 128) :
    (V3 m ρ c main_v47 : S1x128.Idx → EReal) (ix2 (0 : Fin 1) q) = (m ((c : Thread nD τ).loc main_arg5) : S128.Idx → EReal) (ix1 q) :=
  (after1_v47_at (W2 m ρ c) 0 q).trans (congrFun (W2_arg5 m ρ c) (ix1 q))

theorem shift_eq (q : Fin 128) :
    (V3 m ρ c main_v48 : S1x128.Idx → EReal) (ix2 (0 : Fin 1) q) = (m ((c : Thread nD τ).loc main_arg6) : S128.Idx → EReal) (ix1 q) :=
  (after1_v48_at (W2 m ρ c) 0 q).trans (congrFun (W2_arg6 m ρ c) (ix1 q))

/-! ## The result array -/

/-- Entry (r, q) of the result array: the specification's one-pass form of the argument arrays. -/
theorem kernel_out (r : Fin 50000) (q : Fin 128) :
    ((dat1 (V3 m ρ) c).arrAt 5 cfg1.N : S50000x128.Idx → EReal) (ix2 r q)
      = Cert.Spec.outOnePass (Ideal.ofBits .f32 0x47435000#32) (Ideal.ofBits .f32 0x3727C5AC#32) (Hspec m c)
          (fun q => (m ((c : Thread nD τ).loc main_arg5) : S128.Idx → EReal) (ix1 q)) (fun q => (m ((c : Thread nD τ).loc main_arg6) : S128.Idx → EReal) (ix1 q)) r q := by
  rw [final1_5 (V3 m ρ) c, Oarr_ix2]
  unfold Orc
  rw [mean_eq, var_eq, scale_eq, shift_eq, V3_v26_0, Harr_ix2]
  show max ((((H0 (V1 m ρ) c r q - Cert.Spec.mean _ (H0 (V1 m ρ) c) q) * Ideal.rsqrt (Cert.Spec.varOnePass _ (H0 (V1 m ρ) c) q + _)) * _) + _) 0 = _
  rw [H0_eq]
  rfl

end

end Cert.KernelIdeal.Hand

end
-- ==== Proof.MathLaw.lean ====
/-
  The one-pass and the two-pass form of a batch normalisation agree on real entries.

  For a column of reals y_0 … y_{n-1} (n > 0) with mean m = (Σ y_r) / n,

      (Σ (y_r − m)²) / n = (Σ y_r²) / n − m² ,

  and the left side is a sum of squares over a positive number, hence ≥ 0, so clamping the right side at zero
  changes nothing. On the extended reals the same holds when every entry is (the image of) a real and the divisor
  is the real n: finite sums, products, differences and the quotient by a nonzero real of reals are reals, and the
  coercion ℝ → EReal commutes with each of them.
-/
import proofs.«135504_j88974542504019_2_alg».proof.Proof.Spec
import Idealize.ShloMosaic.PureOps.Ideal
import Mathlib.Algebra.BigOperators.Fin
import Mathlib.Algebra.Order.BigOperators.Ring.Finset
import Mathlib.Tactic

noncomputable section

namespace Cert.Math

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In ℝ: the mean of the squared deviations is the mean of the squares minus the squared mean. -/
theorem var_real {n : ℕ} (hn : 0 < n) (y : Fin n → ℝ) :
    (∑ r, (y r - (∑ r, y r) * (1 / (n : ℝ))) * (y r - (∑ r, y r) * (1 / (n : ℝ)))) * (1 / (n : ℝ))
      = (∑ r, y r * y r) * (1 / (n : ℝ))
          - ((∑ r, y r) * (1 / (n : ℝ))) * ((∑ r, y r) * (1 / (n : ℝ))) := by
  have hn' : (n : ℝ) ≠ 0 := by exact_mod_cast hn.ne'
  generalize hS : (∑ r, y r) = S
  generalize hm : S * (1 / (n : ℝ)) = m
  have hSm : S = (n : ℝ) * m := by rw [← hm]; field_simp
  have h1 : ∀ r, (y r - m) * (y r - m) = y r * y r - 2 * m * y r + m * m := fun r => by ring
  have h2 : ∑ r, (y r - m) * (y r - m) = (∑ r, y r * y r) - 2 * m * S + (n : ℝ) * (m * m) := by
    simp only [h1, Finset.sum_add_distrib, Finset.sum_sub_distrib, ← Finset.mul_sum, hS, Finset.sum_const,
      Finset.card_univ, Fintype.card_fin, nsmul_eq_mul]
    ring
  rw [h2, hSm]
  field_simp
  ring

/-- In ℝ: the mean of the squared deviations is not negative. -/
theorem var_real_nonneg {n : ℕ} (y : Fin n → ℝ) (m : ℝ) :
    0 ≤ (∑ r, (y r - m) * (y r - m)) * (1 / (n : ℝ)) :=
  mul_nonneg (Finset.sum_nonneg fun r _ => mul_self_nonneg _) (by positivity)

variable {n c : ℕ}

/-- The mean of real entries over the real divisor n is the real mean. -/
theorem mean_coe (hn : 0 < n) (y : Fin n → Fin c → ℝ) (q : Fin c) :
    Cert.Spec.mean (((n : ℝ) : EReal)) (fun r q => (y r q : EReal)) q
      = (((∑ r, y r q) * (1 / (n : ℝ)) : ℝ) : EReal) := by
  have hn' : (n : ℝ) ≠ 0 := by exact_mod_cast hn.ne'
  unfold Cert.Spec.mean
  rw [← coe_sum, Ideal.div_coe hn', ← EReal.coe_mul]

/-- On real entries, with the divisor the number of rows, the clamped one-pass variance is the two-pass variance. -/
theorem varOnePass_eq_varTwoPass (hn : 0 < n) (y : Fin n → Fin c → ℝ) (q : Fin c) :
    Cert.Spec.varOnePass (((n : ℝ) : EReal)) (fun r q => (y r q : EReal)) q
      = Cert.Spec.varTwoPass (((n : ℝ) : EReal)) (fun r q => (y r q : EReal)) q := by
  have hn' : (n : ℝ) ≠ 0 := by exact_mod_cast hn.ne'
  unfold Cert.Spec.varOnePass Cert.Spec.varTwoPass
  rw [mean_coe hn y q]
  simp only [← EReal.coe_mul, ← EReal.coe_sub, ← coe_sum, Ideal.div_coe hn']
  rw [← var_real hn (fun r => y r q)]
  exact max_eq_left (by exact_mod_cast var_real_nonneg (fun r => y r q) _)

/-- The law: on real activations, with N the number of rows (n > 0), normalising with the clamped one-pass
    variance and with the two-pass variance give the same result, entry by entry. -/
theorem outOnePass_eq_outTwoPass (N ε : EReal) (hN : N = ((n : ℝ) : EReal)) (hn : 0 < n)
    (H : Fin n → Fin c → EReal) (hH : ∀ r q, ∃ y : ℝ, H r q = (y : EReal))
    (γ β : Fin c → EReal) (r : Fin n) (q : Fin c) :
    Cert.Spec.outOnePass N ε H γ β r q = Cert.Spec.outTwoPass N ε H γ β r q := by
  choose y hy using hH
  obtain rfl : H = fun r q => (y r q : EReal) := funext fun r => funext fun q => hy r q
  subst hN
  unfold Cert.Spec.outOnePass Cert.Spec.outTwoPass Cert.Spec.normRelu
  rw [varOnePass_eq_varTwoPass hn y q]

end Cert.Math

end
-- ==== Proof.MathRef.lean ====
/-
  The reference program read at an index.

  The reference forms the activations

      h r q = ((Σ_k (agg r k / degc r) · W_l q k) + b_l q) + Σ_k x r k · W_r q k ,

  (agg the neighbour sums, degc the degree clamped below at one; the two weight tables are read through their
  transposes), then the mean over the rows, μ q = (0 + Σ_r h r q) / N, the two-pass variance
  v q = (0 + Σ_r (h r q − μ q)²) / N, and returns max (((h r q − μ q) · rsqrt (v q + ε)) · γ q + β q, 0).
  With the zero initial values of the two sums removed this is the specification's two-pass form, entry by entry.
  Then, on real entries with degc r a nonzero real, a / d = a · (1 / d) and the sum of three terms re-associates, which
  is the specification's `hidden`.
-/
import proofs.«135504_j88974542504019_2_alg».proof.Proof.Spec
import proofs.«135504_j88974542504019_2_alg».proof.Proof.Gen.ReferenceIdeal.Read
import Idealize.ShloMosaic.Lib.ValueIdx
import Idealize.ShloMosaic.PureOps.Ideal.Laws

noncomputable section

namespace Cert.Math.Ref

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The number of rows as the reference spells it: the pattern of 50000.0. -/
abbrev N : EReal := Ideal.ofBits .f32 0x47435000#32
/-- The stabiliser added to the variance: the pattern nearest 1e-5. -/
abbrev eps : EReal := Ideal.ofBits .f32 0x3727C5AC#32

/-- The pattern 0x47435000 denotes the real 50000. -/
theorem N_eq : N = (((50000 : ℕ) : ℝ) : EReal) := by
  simp [N, Ideal.ofBits, Ideal.ieee, -EReal.coe_mul]; norm_num

/-- The reference's activations as a function of the neighbour sums, the clamped degrees and the arguments. -/
def Href (agg : S50000x128.Idx → EReal) (degc : S50000.Idx → EReal) (x : S50000x128.Idx → EReal)
    (Wl : S128x128.Idx → EReal) (bl : S128.Idx → EReal) (Wr : S128x128.Idx → EReal) (r : Fin 50000) (q : Fin 128) : EReal :=
  ((∑ k : Fin 128, Ideal.div (agg (ix2 r k)) (degc (ix1 r)) * Wl (ix2 q k)) + bl (ix1 q))
    + ∑ k : Fin 128, x (ix2 r k) * Wr (ix2 q k)

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

/-- The quotient of the neighbour sums by the broadcast clamped degree, at an entry. -/
theorem meanAgg_at (r : Fin 50000) (k : Fin 128) :
    val_main_v22 (F := Ideal) x0 x1 (ix2 r k)
      = Ideal.div (val_main_v13 (F := Ideal) x0 x1 (ix2 r k)) (val_main_v19 (F := Ideal) x1 (ix1 r)) := by
  rw [val_main_v22_apply, val_main_v21_apply, val_main_v20_apply, Ideal.hostDivf_def]
  exact congrArg (fun j => Ideal.div _ (val_main_v19 (F := Ideal) x1 j)) (funext fun a => Fin.ext (by match a with | ⟨0, _⟩ => rfl))

/-- The activations the reference forms are `Href` of its neighbour sums and clamped degrees. -/
theorem hidden_at (r : Fin 50000) (q : Fin 128) :
    val_main_v30 (F := Ideal) x0 x1 x2 x3 x4 (ix2 r q)
      = Href (val_main_v13 (F := Ideal) x0 x1) (val_main_v19 (F := Ideal) x1) x0 x2 x3 x4 r q := by
  rw [val_main_v30_apply, val_main_v27_apply, val_main_v24_apply, val_main_v29_apply, val_main_v26_apply,
    val_main_v25_apply]
  unfold Href
  simp only [Ideal.addf_def]
  have e1 : ∀ k : Fin 128, lidx_main_v24 (ix2 r q) k = ix2 r k := fun k => funext fun a => Fin.ext (by match a with | ⟨0, _⟩ => rfl | ⟨1, _⟩ => rfl)
  have e2 : ∀ k : Fin 128, idx_main_v23 (ridx_main_v24 (ix2 r q) k) = ix2 q k := fun k => funext fun a => Fin.ext (by match a with | ⟨0, _⟩ => rfl | ⟨1, _⟩ => rfl)
  have e3 : ∀ k : Fin 128, lidx_main_v29 (ix2 r q) k = ix2 r k := fun k => funext fun a => Fin.ext (by match a with | ⟨0, _⟩ => rfl | ⟨1, _⟩ => rfl)
  have e4 : ∀ k : Fin 128, idx_main_v28 (ridx_main_v29 (ix2 r q) k) = ix2 q k := fun k => funext fun a => Fin.ext (by match a with | ⟨0, _⟩ => rfl | ⟨1, _⟩ => rfl)
  have e5 : idx_main_v25 (idx_main_v26 (ix2 r q)) = ix1 q := funext fun a => Fin.ext (by match a with | ⟨0, _⟩ => rfl)
  refine congrArg₂ (· + ·) (congrArg₂ (· + ·) (Finset.sum_congr rfl fun k _ => ?_) (congrArg x3 e5))
    (Finset.sum_congr rfl fun k _ => ?_)
  · rw [val_main_v23_apply, e1, e2, meanAgg_at]
  · rw [val_main_v28_apply, e3, e4]

/-- The mean the reference broadcasts, at a column. -/
theorem mean_at (q : Fin 128) :
    val_main_v33 (F := Ideal) x0 x1 x2 x3 x4 (ix1 q)
      = Cert.Spec.mean N (fun r q => val_main_v30 (F := Ideal) x0 x1 x2 x3 x4 (ix2 r q)) q := by
  rw [val_main_v33_apply, val_main_v31_apply, val_main_v32_apply, val_main_cst_4_apply, val_main_cst_5_apply]
  simp only [Ideal.hostDivf_def, Ideal.ofBits_def, Ideal.ofBits_zero_f32, zero_add]
  unfold Cert.Spec.mean
  refine congrArg (Ideal.div · N) (Finset.sum_congr rfl fun k _ => ?_)
  exact congrArg (val_main_v30 (F := Ideal) x0 x1 x2 x3 x4) (funext fun a => Fin.ext (by match a with | ⟨0, _⟩ => rfl | ⟨1, _⟩ => rfl))

/-- The first broadcast of the mean, at an entry. -/
theorem mean_bcast1_at (k : Fin 50000) (q : Fin 128) :
    val_main_v35 (F := Ideal) x0 x1 x2 x3 x4 (ix2 k q) = val_main_v33 (F := Ideal) x0 x1 x2 x3 x4 (ix1 q) := by
  rw [val_main_v35_apply, val_main_v34_apply]
  exact congrArg (val_main_v33 (F := Ideal) x0 x1 x2 x3 x4) (funext fun a => Fin.ext (by match a with | ⟨0, _⟩ => rfl))

/-- The second broadcast of the mean, at an entry. -/
theorem mean_bcast2_at (k : Fin 50000) (q : Fin 128) :
    val_main_v42 (F := Ideal) x0 x1 x2 x3 x4 (ix2 k q) = val_main_v33 (F := Ideal) x0 x1 x2 x3 x4 (ix1 q) := by
  rw [val_main_v42_apply, val_main_v41_apply]
  exact congrArg (val_main_v33 (F := Ideal) x0 x1 x2 x3 x4) (funext fun a => Fin.ext (by match a with | ⟨0, _⟩ => rfl))

/-- The variance the reference forms, at a column: the two-pass form. -/
theorem var_at (q : Fin 128) :
    val_main_v40 (F := Ideal) x0 x1 x2 x3 x4 (ix1 q)
      = Cert.Spec.varTwoPass N (fun r q => val_main_v30 (F := Ideal) x0 x1 x2 x3 x4 (ix2 r q)) q := by
  rw [val_main_v40_apply, val_main_v38_apply, val_main_v39_apply, val_main_cst_6_apply, val_main_cst_7_apply]
  simp only [Ideal.hostDivf_def, Ideal.ofBits_def, Ideal.ofBits_zero_f32, zero_add]
  unfold Cert.Spec.varTwoPass
  refine congrArg (Ideal.div · N) (Finset.sum_congr rfl fun k _ => ?_)
  have e : idx_main_v38 (ix1 q) k = ix2 k q := funext fun a => Fin.ext (by match a with | ⟨0, _⟩ => rfl | ⟨1, _⟩ => rfl)
  rw [e, val_main_v37_apply, val_main_v36_apply, mean_bcast1_at, mean_at]
  rfl

/-- The reference's result at an entry is the specification's two-pass form of its own activations. -/
theorem result_at (r : Fin 50000) (q : Fin 128) :
    val_main_v56 (F := Ideal) x0 x1 x2 x3 x4 x5 x6 (ix2 r q)
      = Cert.Spec.outTwoPass N eps (fun r q => val_main_v30 (F := Ideal) x0 x1 x2 x3 x4 (ix2 r q))
          (fun q => x5 (ix1 q)) (fun q => x6 (ix1 q)) r q := by
  rw [val_main_v56_apply, val_main_v55_apply, val_main_v52_apply, val_main_v49_apply, val_main_v43_apply,
    val_main_v48_apply, val_main_v47_apply, val_main_v46_apply, val_main_v45_apply, val_main_v44_apply,
    val_main_cst_8_apply, val_main_v51_apply, val_main_v50_apply, val_main_v54_apply, val_main_v53_apply,
    val_main_call0_v0_apply, val_main_call0_cst_apply, mean_bcast2_at, mean_at]
  have e1 : idx_main_v47 (idx_main_v48 (ix2 r q)) = ix1 q := funext fun a => Fin.ext (by match a with | ⟨0, _⟩ => rfl)
  have e2 : idx_main_v50 (idx_main_v51 (ix2 r q)) = ix1 q := funext fun a => Fin.ext (by match a with | ⟨0, _⟩ => rfl)
  have e3 : idx_main_v53 (idx_main_v54 (ix2 r q)) = ix1 q := funext fun a => Fin.ext (by match a with | ⟨0, _⟩ => rfl)
  rw [e1, e2, e3, var_at]
  simp only [Ideal.maximumf_def, Ideal.addf_def, Ideal.mulf_def, Ideal.subf_def, Ideal.hostUnary_rsqrt_def,
    Ideal.ofBits_def, Ideal.ofBits_zero_f32]
  rfl

/-- The reference's result at an entry: the two-pass form of `Href`. -/
theorem result_eq_outTwoPass (r : Fin 50000) (q : Fin 128) :
    val_main_v56 (F := Ideal) x0 x1 x2 x3 x4 x5 x6 (ix2 r q)
      = Cert.Spec.outTwoPass N eps (Href (val_main_v13 (F := Ideal) x0 x1) (val_main_v19 (F := Ideal) x1) x0 x2 x3 x4)
          (fun q => x5 (ix1 q)) (fun q => x6 (ix1 q)) r q := by
  rw [result_at]
  exact congrArg (fun H => Cert.Spec.outTwoPass N eps H (fun q => x5 (ix1 q)) (fun q => x6 (ix1 q)) r q)
    (funext fun r => funext fun q => hidden_at x0 x1 x2 x3 x4 r q)

/-- Dividing by a nonzero real is multiplying by its reciprocal, and the three summands re-associate: where every
    clamped degree is a nonzero real, the reference's activations are the specification's `hidden` of the
    reciprocal degrees. (No finiteness of the other entries is needed: the sum of extended reals is commutative and
    associative, and a / d = a · (1 / d) for every extended real a when d is a nonzero real.) -/
theorem Href_eq_hidden (agg : S50000x128.Idx → EReal) (degc : S50000.Idx → EReal) (x : S50000x128.Idx → EReal)
    (Wl : S128x128.Idx → EReal) (bl : S128.Idx → EReal) (Wr : S128x128.Idx → EReal)
    (hd : ∀ r : Fin 50000, ∃ y : ℝ, y ≠ 0 ∧ degc (ix1 r) = (y : EReal)) (r : Fin 50000) (q : Fin 128) :
    Href agg degc x Wl bl Wr r q
      = Cert.Spec.hidden (fun r k => agg (ix2 r k)) (fun r => Ideal.div 1 (degc (ix1 r))) (fun r k => x (ix2 r k))
          (fun q k => Wl (ix2 q k)) (fun q => bl (ix1 q)) (fun q k => Wr (ix2 q k)) r q := by
  obtain ⟨y, hy0, hy⟩ := hd r
  unfold Href Cert.Spec.hidden
  rw [add_right_comm]
  simp only [hy, Ideal.div_coe hy0, one_mul]

/-- The reference's result at an entry, where every clamped degree is a nonzero real: the two-pass form of the
    specification's `hidden`. -/
theorem result_eq_outTwoPass_hidden
    (hd : ∀ r : Fin 50000, ∃ y : ℝ, y ≠ 0 ∧ val_main_v19 (F := Ideal) x1 (ix1 r) = (y : EReal))
    (r : Fin 50000) (q : Fin 128) :
    val_main_v56 (F := Ideal) x0 x1 x2 x3 x4 x5 x6 (ix2 r q)
      = Cert.Spec.outTwoPass N eps
          (Cert.Spec.hidden (fun r k => val_main_v13 (F := Ideal) x0 x1 (ix2 r k))
            (fun r => Ideal.div 1 (val_main_v19 (F := Ideal) x1 (ix1 r))) (fun r k => x0 (ix2 r k))
            (fun q k => x2 (ix2 q k)) (fun q => x3 (ix1 q)) (fun q k => x4 (ix2 q k)))
          (fun q => x5 (ix1 q)) (fun q => x6 (ix1 q)) r q := by
  rw [result_eq_outTwoPass]
  exact congrArg (fun H => Cert.Spec.outTwoPass N eps H (fun q => x5 (ix1 q)) (fun q => x6 (ix1 q)) r q)
    (funext fun r => funext fun q => Href_eq_hidden _ _ x0 x2 x3 x4 hd r q)

/-- The same for the term the reference's run states for its result buffer. -/
theorem res_eq_outTwoPass (m : (ℓ : Loc nD τ sig) → Buf (Elt Ideal) ℓ) (c : Dev nD) (r : Fin 50000) (q : Fin 128) :
    (Cert.ReferenceIdeal.Value.res_main_v56 (F := Ideal) m c : S50000x128.Idx → EReal) (ix2 r q)
      = Cert.Spec.outTwoPass N eps
          (Href (val_main_v13 (F := Ideal) (m ((c.tc : Thread nD τ).loc main_arg0)) (m ((c.tc : Thread nD τ).loc main_arg1)))
            (val_main_v19 (F := Ideal) (m ((c.tc : Thread nD τ).loc main_arg1)))
            (m ((c.tc : Thread nD τ).loc main_arg0)) (m ((c.tc : Thread nD τ).loc main_arg2))
            (m ((c.tc : Thread nD τ).loc main_arg3)) (m ((c.tc : Thread nD τ).loc main_arg4)))
          (fun q => (m ((c.tc : Thread nD τ).loc main_arg5) : S128.Idx → EReal) (ix1 q))
          (fun q => (m ((c.tc : Thread nD τ).loc main_arg6) : S128.Idx → EReal) (ix1 q)) r q :=
  (congrFun (val_main_v56_eq (F := Ideal) m c) (ix2 r q)).trans (result_eq_outTwoPass _ _ _ _ _ _ _ r q)

end Cert.Math.Ref

end
-- ==== Proof.MathSame.lean ====
/-
  The kernel program and the reference form the neighbour sums and the clamped degrees by the same operations of the
  same arguments: the two printed terms are one term.
-/
import proofs.«135504_j88974542504019_2_alg».proof.Proof.MathHost0
import proofs.«135504_j88974542504019_2_alg».proof.Proof.Gen.ReferenceIdeal.Read

noncomputable section

namespace Cert.Math.Same

open Idealize.ShloMosaic

/-- The neighbour sums of the kernel program's first stretch are the reference's. -/
theorem agg_eq (x : (⟨Cert.KernelIdeal.S50000x128, .f32⟩ : BufTy).Contents (Elt Ideal))
    (e : (⟨Cert.KernelIdeal.S2x800000, .i32⟩ : BufTy).Contents (Elt Ideal)) :
    Cert.Math.Host.agg x e = Cert.ReferenceIdeal.Read.val_main_v13 (F := Ideal) x e := rfl

/-- The clamped degrees of the kernel program's first stretch are the reference's. -/
theorem degc_eq (e : (⟨Cert.KernelIdeal.S2x800000, .i32⟩ : BufTy).Contents (Elt Ideal)) :
    Cert.Math.Host.degc e = Cert.ReferenceIdeal.Read.val_main_v19 (F := Ideal) e := rfl

end Cert.Math.Same

end
-- ==== Proof.MathPre.lean ====
/-
  From the precondition to real entries.

  The precondition is the conjunction, over the six float arguments, of "every entry has absolute value below +∞",
  printed as a chain of conjunctions of all-reductions. Where it is all ones, each all-reduction is one, so each entry x
  satisfies max (x, −x) < ⊤ on the extended reals; that excludes ⊤ and ⊥, so x is (the image of) a real.
-/
import proofs.«135504_j88974542504019_2_alg».proof.Defs
import Idealize.ShloMosaic.Lib.ReduceAll
import Idealize.ShloMosaic.Lib.ValueIdx
import Idealize.ShloMosaic.PureOps.Ideal.Laws

noncomputable section

namespace Cert.Math.Pre

open Idealize.ShloMosaic Idealize.ShloMosaic.ValueIdx Idealize.SL.Sem

/-- Every entry of an array of extended reals is a real. -/
def AllReal {s : Shape} (x : s.Idx → EReal) : Prop := ∀ i, ∃ y : ℝ, x i = (y : EReal)

instance : Subsingleton (⟨0, ![]⟩ : Shape).Idx := ⟨fun a b => funext fun d => d.elim0⟩

/-- An extended real whose absolute value is below +∞ (as the comparison with the pattern of +∞ reads) is a real. -/
theorem real_of_abs_lt_inf (v : EReal)
    (h : Ideal.cmp .olt (max v (-v)) (Ideal.ofBits .f32 0x7F800000#32) = 1#1) : ∃ y : ℝ, v = (y : EReal) := by
  have hinf : Ideal.ofBits .f32 0x7F800000#32 = ⊤ := by simp [Ideal.ofBits, Ideal.ieee]
  rw [hinf] at h
  induction v using EReal.rec with
  | bot => exact absurd h (by simp [Ideal.cmp])
  | coe y => exact ⟨y, rfl⟩
  | top => exact absurd h (by simp [Ideal.cmp])

/-- Where the all-reduction of "|x| < +∞" is one, every entry of x is a real. -/
theorem allReal_of_reduce {s t u : Shape} {axes : List (Fin s.rank)} [Subsingleton t.Idx] (x inf : FVec Ideal s .f32)
    (hinf : ∀ i, inf i = Ideal.ofBits .f32 0x7F800000#32) (init : u.Idx → BitVec 1) (h : s.ReducesTo axes t)
    (hu : 0 < u.numel) (j : t.Idx)
    (e : Host.reduce IntOp.andi (cmpf .olt (Host.absf x) inf) init h hu j = 1#1) : AllReal x := fun i => by
  have e1 : Ideal.cmp .olt (max (x i) (-(x i))) (inf i) = 1#1 := Host.reduce_andi_all _ init h hu j e i
  rw [hinf i] at e1
  exact real_of_abs_lt_inf _ e1

variable [Cert.Pre_finite_inputs.Facts]

/-- Where the printed predicate is all ones, each of the six float arguments has only real entries. -/
theorem fn_real (x0 : FVec Ideal Cert.Pre_finite_inputs.S50000x128 .f32) (x1 : IVec Cert.Pre_finite_inputs.S2x800000 32)
    (x2 : FVec Ideal Cert.Pre_finite_inputs.S128x128 .f32) (x3 : FVec Ideal Cert.Pre_finite_inputs.S128 .f32)
    (x4 : FVec Ideal Cert.Pre_finite_inputs.S128x128 .f32) (x5 x6 : FVec Ideal Cert.Pre_finite_inputs.S128 .f32)
    (h : Cert.Pre_finite_inputs.fn (F := Ideal) x0 x1 x2 x3 x4 x5 x6 = fun _ => 1#1) :
    AllReal x0 ∧ AllReal x2 ∧ AllReal x3 ∧ AllReal x4 ∧ AllReal x5 ∧ AllReal x6 := by
  have h0 := congrFun h ix0
  dsimp only [Cert.Pre_finite_inputs.fn, Cert.Pre_finite_inputs.fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨e0, e2⟩ := IntOp.andi_eq_one.1 h4
  exact ⟨allReal_of_reduce x0 _ (fun _ => rfl) _ _ _ _ e0, allReal_of_reduce x2 _ (fun _ => rfl) _ _ _ _ e2,
    allReal_of_reduce x3 _ (fun _ => rfl) _ _ _ _ e3, allReal_of_reduce x4 _ (fun _ => rfl) _ _ _ _ e4,
    allReal_of_reduce x5 _ (fun _ => rfl) _ _ _ _ e5, allReal_of_reduce x6 _ (fun _ => rfl) _ _ _ _ e6⟩

/-- The kernel program's precondition gives real entries of its six float arguments, on every core. -/
theorem pre_real (m : (ℓ : Loc Cert.KernelIdeal.nD Cert.KernelIdeal.τ Cert.KernelIdeal.sig) → Buf (Elt Ideal) ℓ)
    (hm : Cert.Pre_KernelIdeal m) (c : Dev Cert.KernelIdeal.nD) :
    AllReal (s := Cert.KernelIdeal.S50000x128) (m ((c.tc : Thread Cert.KernelIdeal.nD Cert.KernelIdeal.τ).loc Cert.KernelIdeal.main_arg0))
    ∧ AllReal (s := Cert.KernelIdeal.S128x128) (m ((c.tc : Thread Cert.KernelIdeal.nD Cert.KernelIdeal.τ).loc Cert.KernelIdeal.main_arg2))
    ∧ AllReal (s := Cert.KernelIdeal.S128) (m ((c.tc : Thread Cert.KernelIdeal.nD Cert.KernelIdeal.τ).loc Cert.KernelIdeal.main_arg3))
    ∧ AllReal (s := Cert.KernelIdeal.S128x128) (m ((c.tc : Thread Cert.KernelIdeal.nD Cert.KernelIdeal.τ).loc Cert.KernelIdeal.main_arg4))
    ∧ AllReal (s := Cert.KernelIdeal.S128) (m ((c.tc : Thread Cert.KernelIdeal.nD Cert.KernelIdeal.τ).loc Cert.KernelIdeal.main_arg5))
    ∧ AllReal (s := Cert.KernelIdeal.S128) (m ((c.tc : Thread Cert.KernelIdeal.nD Cert.KernelIdeal.τ).loc Cert.KernelIdeal.main_arg6)) :=
  fn_real _ _ _ _ _ _ _ (hm c)

end Cert.Math.Pre

end
-- ==== Proof.MathDeg.lean ====
/-
  The neighbour sums and the degrees are real, and the clamped degree is a nonzero real.

  An accumulating scatter on the extended reals is, at each element, the operand there plus the sum of the updates that
  land on it: a finite sum of reals when the operand and the updates are real. The degrees add ones into zeros, so they
  are real; the clamped degree max (deg, 1) is then a real ≥ 1, in particular nonzero. The neighbour sums add gathered
  entries of x into zeros, and a gathered entry is an entry of x, so they are real when x is.
-/
import proofs.«135504_j88974542504019_2_alg».proof.Proof.MathHost0
import Idealize.ShloMosaic.Lib.IdealHost

noncomputable section

namespace Cert.Math.Deg

open Cert.KernelIdeal Cert.KernelIdeal.Gen Idealize.ShloMosaic Idealize.ShloMosaic.ValueIdx Cert.Math.Host

/-- A real plus a finite sum of reals is a real. -/
theorem real_add_sum {ι : Type*} (a : EReal) (F : Finset ι) (f : ι → EReal) (ha : ∃ y : ℝ, a = (y : EReal))
    (hf : ∀ j, ∃ y : ℝ, f j = (y : EReal)) : ∃ y : ℝ, a + ∑ j ∈ F, f j = (y : EReal) := by
  classical
  obtain ⟨y0, rfl⟩ := ha
  induction F using Finset.induction_on with
  | empty => exact ⟨y0, by simp⟩
  | insert b s hb ih =>
    obtain ⟨y1, h1⟩ := hf b
    obtain ⟨y2, h2⟩ := ih
    refine ⟨y1 + y2, ?_⟩
    rw [Finset.sum_insert hb, add_left_comm, h2, h1, EReal.coe_add]

/-- An accumulating scatter of real updates into a real operand has real entries. -/
theorem scatterAdd_real {s si su : Shape} (d : ScatterDims s si su) {w : Nat} (x : s.Idx → EReal) (idx : IVec si w)
    (upd : su.Idx → EReal) (hx : ∀ i, ∃ y : ℝ, x i = (y : EReal)) (hu : ∀ j, ∃ y : ℝ, upd j = (y : EReal)) (i : s.Idx) :
    ∃ y : ℝ, Ideal.hostScatterAdd d x idx upd i = (y : EReal) := by
  unfold Ideal.hostScatterAdd
  exact real_add_sum (x i) _ upd (hx i) hu

/-- The zero splat has real entries. -/
theorem zeros_real {T : Shape} (h : (⟨0, ![]⟩ : Shape).BroadcastsInDim T ![]) (i : T.Idx) :
    ∃ y : ℝ, broadcastInDim T ![] h (constant (F := Ideal) S_ .f32 0x00000000#32) i = (y : EReal) :=
  ⟨0, by rw [broadcastInDim_scalar_apply]; exact Ideal.ofBits_zero_f32.trans EReal.coe_zero.symm⟩

/-- The splat of one has real entries. -/
theorem ones_real {T : Shape} (h : (⟨0, ![]⟩ : Shape).BroadcastsInDim T ![]) (i : T.Idx) :
    ∃ y : ℝ, broadcastInDim T ![] h (constant (F := Ideal) S_ .f32 0x3F800000#32) i = (y : EReal) :=
  ⟨1, by rw [broadcastInDim_scalar_apply]; exact Ideal.ofBits_one_f32.trans EReal.coe_one.symm⟩

/-- The same for the host's accumulating scatter at the extended reals, over any shapes. -/
theorem hostScatterAdd_real {s si su : Shape} {φ : FTy} (d : ScatterDims s si su) {w : Nat} (x : FVec Ideal s φ) (idx : IVec si w)
    (upd : FVec Ideal su φ) (hx : ∀ i, ∃ y : ℝ, x i = (y : EReal)) (hu : ∀ j, ∃ y : ℝ, upd j = (y : EReal)) (i : s.Idx) :
    ∃ y : ℝ, Host.scatterAdd (F := Ideal) d x idx upd i = (y : EReal) :=
  scatterAdd_real d x idx upd hx hu i

/-- A gathered array of a real array has real entries: each is an entry of the operand. -/
theorem gather_real {s si t : Shape} {w : Nat} (g : GatherDims s si t) (x : s.Idx → EReal) (idx : IVec si w)
    (hx : ∀ i, ∃ y : ℝ, x i = (y : EReal)) (j : t.Idx) : ∃ y : ℝ, Host.gather g x idx j = (y : EReal) :=
  hx _

/-- The degrees, as the accumulating scatter they are. -/
theorem deg_eq (e : (⟨S2x800000, .i32⟩ : BufTy).Contents (Elt Ideal)) :
    deg e = Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dstRow e))
      (broadcastInDim S800000 ![] bcast_S_S800000 (constant (F := Ideal) S_ .f32 0x3F800000#32)) := rfl

/-- Every degree is a real. -/
theorem deg_real (e : (⟨S2x800000, .i32⟩ : BufTy).Contents (Elt Ideal)) (i : S50000.Idx) :
    ∃ y : ℝ, deg e i = (y : EReal) := by
  rw [deg_eq]
  exact hostScatterAdd_real _ _ _ _ (zeros_real bcast_S_S50000) (ones_real bcast_S_S800000) i

/-- The clamped degrees, as the maximum they are. -/
theorem degc_eq (e : (⟨S2x800000, .i32⟩ : BufTy).Contents (Elt Ideal)) :
    degc e = maximumf (F := Ideal) (deg e)
      (broadcastInDim S50000 ![] bcast_S_S50000 (constant (F := Ideal) S_ .f32 0x3F800000#32)) := rfl

/-- Every clamped degree is a nonzero real (it is at least one). -/
theorem degc_real_ne (e : (⟨S2x800000, .i32⟩ : BufTy).Contents (Elt Ideal)) (i : S50000.Idx) :
    ∃ y : ℝ, y ≠ 0 ∧ degc e i = (y : EReal) := by
  obtain ⟨y, hy⟩ := deg_real e i
  refine ⟨max y 1, (lt_of_lt_of_le one_pos (le_max_right y 1)).ne', ?_⟩
  rw [degc_eq, maximumf_apply, hy, broadcastInDim_scalar_apply, constant_apply, Ideal.ofBits_one_f32, ← EReal.coe_one]
  exact (EReal.coe_strictMono.monotone.map_max).symm

/-- The neighbour sums, as the accumulating scatter of the gathered rows they are. -/
theorem agg_eq (x : (⟨S50000x128, .f32⟩ : BufTy).Contents (Elt Ideal)) (e : (⟨S2x800000, .i32⟩ : BufTy).Contents (Elt Ideal)) :
    agg x e = Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dstRow e))
      (Host.gather gather_S50000x128_S800000x1_S800000x128_1_0_n_n_0_1_1128 x
        (broadcastInDim S800000x1 ![0] bcast_S800000_S800000x1_0
          (select (cmpi .slt (srcRow e) (broadcastInDim S800000 ![] bcast_S_S800000 (constantI S_ 32 0#32)))
            (addi (srcRow e) (broadcastInDim S800000 ![] bcast_S_S800000 (constantI S_ 32 50000#32))) (srcRow e)))) := rfl

/-- The neighbour sums of a real array are real. -/
theorem agg_real (x : (⟨S50000x128, .f32⟩ : BufTy).Contents (Elt Ideal)) (e : (⟨S2x800000, .i32⟩ : BufTy).Contents (Elt Ideal))
    (hx : ∀ i, ∃ y : ℝ, x i = (y : EReal)) (i : S50000x128.Idx) : ∃ y : ℝ, agg x e i = (y : EReal) := by
  rw [agg_eq]
  exact hostScatterAdd_real _ _ _ _ (zeros_real bcast_S_S50000x128) (gather_real _ x _ hx) i

end Cert.Math.Deg

end
-- ==== Proof.MathAll.lean ====
/-
  The assembly on the mathematical side: under the precondition, the kernel program's spelling of the layer (one-pass
  variance, reciprocal degrees) is the reference's result, entry by entry.

  The precondition makes every entry of the six float arguments real; the neighbour sums of a real array are real and
  the clamped degrees are nonzero reals, so their reciprocals are real and the activations, finite sums of products of
  reals, are real; on real activations with N the number of rows the one-pass and the two-pass variances agree; and the
  reference's result is the two-pass form of the same activations.
-/
import proofs.«135504_j88974542504019_2_alg».proof.Proof.MathLaw
import proofs.«135504_j88974542504019_2_alg».proof.Proof.MathRef
import proofs.«135504_j88974542504019_2_alg».proof.Proof.MathHost0
import proofs.«135504_j88974542504019_2_alg».proof.Proof.MathSame
import proofs.«135504_j88974542504019_2_alg».proof.Proof.MathPre
import proofs.«135504_j88974542504019_2_alg».proof.Proof.MathDeg

noncomputable section

namespace Cert.Math.All

open Idealize.ShloMosaic Idealize.ShloMosaic.ValueIdx

/-- The activations of real arguments are real: finite sums of products of reals, plus a real. -/
theorem hidden_real {n c kk : ℕ} (a : Fin n → Fin kk → EReal) (d : Fin n → EReal) (x : Fin n → Fin kk → EReal)
    (Wl : Fin c → Fin kk → EReal) (b : Fin c → EReal) (Wr : Fin c → Fin kk → EReal)
    (ha : ∀ r k, ∃ y : ℝ, a r k = (y : EReal)) (hd : ∀ r, ∃ y : ℝ, d r = (y : EReal))
    (hx : ∀ r k, ∃ y : ℝ, x r k = (y : EReal)) (hWl : ∀ q k, ∃ y : ℝ, Wl q k = (y : EReal))
    (hb : ∀ q, ∃ y : ℝ, b q = (y : EReal)) (hWr : ∀ q k, ∃ y : ℝ, Wr q k = (y : EReal)) (r : Fin n) (q : Fin c) :
    ∃ y : ℝ, Cert.Spec.hidden a d x Wl b Wr r q = (y : EReal) := by
  choose ya hya using ha
  choose yd hyd using hd
  choose yx hyx using hx
  choose yl hyl using hWl
  choose yb hyb using hb
  choose yr hyr using hWr
  refine ⟨((∑ k, (ya r k * yd r) * yl q k) + (∑ k, yx r k * yr q k)) + yb q, ?_⟩
  unfold Cert.Spec.hidden
  simp only [hya, hyd, hyx, hyl, hyb, hyr, ← EReal.coe_mul, ← Cert.Math.coe_sum, ← EReal.coe_add]

variable [Cert.Pre_finite_inputs.Facts]

/-- Under the precondition the kernel program's form of the layer is the reference's result at every entry. -/
theorem kernel_eq_ref (x0 : (⟨Cert.KernelIdeal.S50000x128, .f32⟩ : BufTy).Contents (Elt Ideal))
    (x1 : (⟨Cert.KernelIdeal.S2x800000, .i32⟩ : BufTy).Contents (Elt Ideal))
    (x2 : (⟨Cert.KernelIdeal.S128x128, .f32⟩ : BufTy).Contents (Elt Ideal))
    (x3 : (⟨Cert.KernelIdeal.S128, .f32⟩ : BufTy).Contents (Elt Ideal))
    (x4 : (⟨Cert.KernelIdeal.S128x128, .f32⟩ : BufTy).Contents (Elt Ideal))
    (x5 x6 : (⟨Cert.KernelIdeal.S128, .f32⟩ : BufTy).Contents (Elt Ideal))
    (hpre : Cert.Pre_finite_inputs.fn (F := Ideal) x0 x1 x2 x3 x4 x5 x6 = fun _ => 1#1) (r : Fin 50000) (q : Fin 128) :
    Cert.Spec.outOnePass Cert.Math.Ref.N Cert.Math.Ref.eps
        (Cert.Spec.hidden (fun r k => Cert.Math.Host.agg x0 x1 (ix2 r k)) (fun r => Ideal.div 1 (Cert.Math.Host.degc x1 (ix1 r)))
          (fun r k => x0 (ix2 r k)) (fun q k => x2 (ix2 q k)) (fun q => x3 (ix1 q)) (fun q k => x4 (ix2 q k)))
        (fun q => x5 (ix1 q)) (fun q => x6 (ix1 q)) r q
      = Cert.ReferenceIdeal.Read.val_main_v56 (F := Ideal) x0 x1 x2 x3 x4 x5 x6 (ix2 r q) := by
  obtain ⟨h0, h2, h3, h4, h5, h6⟩ := Cert.Math.Pre.fn_real x0 x1 x2 x3 x4 x5 x6 hpre
  have hd : ∀ r : Fin 50000, ∃ y : ℝ, y ≠ 0 ∧ Cert.ReferenceIdeal.Read.val_main_v19 (F := Ideal) x1 (ix1 r) = (y : EReal) :=
    fun r => by
      rw [← Cert.Math.Same.degc_eq]
      exact Cert.Math.Deg.degc_real_ne x1 (ix1 r)
  rw [Cert.Math.Ref.result_eq_outTwoPass_hidden x0 x1 x2 x3 x4 x5 x6 hd r q]
  simp only [← Cert.Math.Same.agg_eq, ← Cert.Math.Same.degc_eq]
  refine Cert.Math.outOnePass_eq_outTwoPass (n := 50000) (c := 128) Cert.Math.Ref.N Cert.Math.Ref.eps Cert.Math.Ref.N_eq
    (by norm_num) _ (fun r q => ?_) _ _ r q
  refine hidden_real _ _ _ _ _ _ (fun r k => Cert.Math.Deg.agg_real x0 x1 h0 _) (fun r => ?_) (fun r k => h0 _)
    (fun q k => h2 _) (fun q => h3 _) (fun q k => h4 _) r q
  obtain ⟨y, hy0, hy⟩ := Cert.Math.Deg.degc_real_ne x1 (ix1 r)
  exact ⟨1 / y, by rw [hy, Ideal.div_coe hy0, one_mul]⟩

end Cert.Math.All

end
-- ==== Proof.lean ====
/-
  A graph layer with mean aggregation, batch normalisation over the node axis and a rectifier: the kernel program
  against its reference.

  Both programs form the neighbour sums and the clamped degrees by the same host operations. The kernel program then
  computes h = ((agg · (1/deg)) · W_l^T + x · W_r^T) + b block by block in a first region, which also accumulates, per core,
  the column sums of h and of h² over its five blocks; the host adds the two cores' totals, forms the mean and the
  variance in its one-pass form clamped at zero, and a second region normalises, scales, shifts and rectifies. The
  reference divides by the degree, adds the bias before the second product, and uses the two-pass variance.

  On the extended reals the two agree wherever every float input is a real number: a/d = a·(1/d) for a real nonzero d,
  sums may be regrouped freely, and on real entries E[h²] − E[h]² = E[(h − E[h])²] ≥ 0, so the clamp is the identity.

  The three frames: each kernel program is run as four segments (host operations, first region, host operations, second
  region) with every unscoped buffer's contents named at each boundary, so that the arguments are read back as
  launched; the first region's invariant carries its two accumulators from point to point. The reference's frame is its
  run with the result dropped. Nothing was rewritten when the kernel was read on the extended reals.
-/
import proofs.«135504_j88974542504019_2_alg».proof.Defs
import proofs.«135504_j88974542504019_2_alg».proof.Proof.Gen.Kernel
import proofs.«135504_j88974542504019_2_alg».proof.Proof.Gen.KernelIdeal
import proofs.«135504_j88974542504019_2_alg».proof.Proof.Gen.ReferenceIdeal
import proofs.«135504_j88974542504019_2_alg».proof.Proof.Gen.Pre_finite_inputs
import proofs.«135504_j88974542504019_2_alg».proof.Proof.Gen.ReferenceIdeal.Run
import proofs.«135504_j88974542504019_2_alg».proof.Proof.Gen.ReferenceIdeal.Read
import proofs.«135504_j88974542504019_2_alg».proof.Proof.K.Main
import proofs.«135504_j88974542504019_2_alg».proof.Proof.KI.ValFinal
import proofs.«135504_j88974542504019_2_alg».proof.Proof.MathAll
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array, from a memory that agrees with the kernel program's on the arguments, is the kernel
    program's result array: entry by entry both are the specification's form of the arguments — the kernel's one-pass
    form (read off its run), the reference's two-pass form (read off its operations), equal on real inputs. -/
theorem result_same (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v56 (F := Ideal) m' c : Cert.KernelIdeal.S50000x128.Idx → EReal)
      = ((Cert.KernelIdeal.Hand.dat1 (Cert.KernelIdeal.Hand.V3 m ρ) c).arrAt 5 Cert.KernelIdeal.cfg1.N : Cert.KernelIdeal.S50000x128.Idx → EReal) := by
  funext i
  obtain ⟨r, q, rfl⟩ : ∃ (r : Fin 50000) (q : Fin 128), i = ix2 r q := ⟨i 0, i 1, eq_ix2 i⟩
  refine (congrFun (Cert.ReferenceIdeal.Read.val_main_v56_eq (F := Ideal) m' c) (ix2 r q)).trans ?_
  rw [h0, h1, h2, h3, h4, h5, h6]
  refine (Cert.Math.All.kernel_eq_ref _ _ _ _ _ _ _ hpre r q).symm.trans ?_
  exact (Cert.KernelIdeal.Hand.kernel_out m ρ c r q).symm

theorem algebraic : Cert.algebraic_KernelIdeal_ReferenceIdeal := by
  intro m ρ m' ρ' hpre hagree
  refine ⟨fun c => (Cert.KernelIdeal.Hand.dat1 (Cert.KernelIdeal.Hand.V3 m ρ) c).arrAt 5 Cert.KernelIdeal.cfg1.N, Cert.KernelIdeal.Hand.run_result (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6⟩ := hagree c
  exact result_same m ρ m' c (hpre c) h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
